-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x32 : Shape := ⟨2, ![1600000, 32]⟩
abbrev S64x32 : Shape := ⟨2, ![64, 32]⟩
abbrev S100000 : Shape := ⟨1, ![100000]⟩
abbrev S128x64 : Shape := ⟨2, ![128, 64]⟩
abbrev S64 : Shape := ⟨1, ![64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x32 : S_.BroadcastsInDim S64x32 (![] : Fin 0 → Fin S64x32.rank)
  reducesTo_S64x32_S_d0_1 : S64x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S128x64 .f32) (main_arg8 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x32 .f32) (main_arg1 : IVec S2x1600000 32) (main_arg2 : FVec F S1600000x32 .f32) (main_arg3 : FVec F S64x32 .f32) (main_arg4 : IVec S100000 32) (main_arg5 : FVec F S128x64 .f32) (main_arg6 : FVec F S64 .f32) (main_arg7 : FVec F S128x64 .f32) (main_arg8 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S100000x32 : Shape := ⟨2, ![100000, 32]⟩
abbrev S2x1600000 : Shape := ⟨2, ![2, 1600000]⟩
abbrev S1600000x32 : Shape := ⟨2, ![1600000, 32]⟩
abbrev S64x32 : Shape := ⟨2, ![64, 32]⟩
abbrev S100000 : Shape := ⟨1, ![100000]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S1600000x1 : Shape := ⟨2, ![1600000, 1]⟩
abbrev S1600000x64 : Shape := ⟨2, ![1600000, 64]⟩
abbrev S4000x32 : Shape := ⟨2, ![4000, 32]⟩
abbrev S4000x64 : Shape := ⟨2, ![4000, 64]⟩
abbrev S4000x128 : Shape := ⟨2, ![4000, 128]⟩
abbrev S1x64 : Shape := ⟨2, ![1, 64]⟩
abbrev S100000x64 : Shape := ⟨2, ![100000, 64]⟩

abbrev nBuf : Space → Nat
  | .hbm => 55
  | .vmem => 22
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x32, .f32⟩
  | .hbm, ⟨3, _⟩ => ⟨S64x32, .f32⟩
  | .hbm, ⟨4, _⟩ => ⟨S100000, .i32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000x32, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x32, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x32, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x32, .f32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x64, .f32⟩
  | .local _ .vmem, ⟨0, _⟩ => ⟨S4000x32, .f32⟩
  | .local _ .vmem, ⟨1, _⟩ => ⟨S4000x32, .f32⟩
  | .local _ .vmem, ⟨2, _⟩ => ⟨S4000x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S4000x32, .f32⟩
  | .local _ .vmem, ⟨7, _⟩ => ⟨S4000x32, .f32⟩
  | .local _ .vmem, ⟨8, _⟩ => ⟨S128x64, .f32⟩
  | .local _ .vmem, ⟨9, _⟩ => ⟨S64, .f32⟩
  | .local _ .vmem, ⟨10, _⟩ => ⟨S4000x64, .f32⟩
  | .local _ .vmem, ⟨11, _⟩ => ⟨S4000x64, .f32⟩
  | .local _ .vmem, ⟨12, _⟩ => ⟨S4000x32, .f32⟩
  | .local _ .vmem, ⟨13, _⟩ => ⟨S4000x32, .f32⟩
  | .local _ .vmem, ⟨14, _⟩ => ⟨S4000x64, .f32⟩
  | .local _ .vmem, ⟨15, _⟩ => ⟨S4000x64, .f32⟩
  | .local _ .vmem, ⟨16, _⟩ => ⟨S4000x32, .f32⟩
  | .local _ .vmem, ⟨17, _⟩ => ⟨S4000x32, .f32⟩
  | .local _ .vmem, ⟨18, _⟩ => ⟨S128x64, .f32⟩
  | .local _ .vmem, ⟨19, _⟩ => ⟨S64, .f32⟩
  | .local _ .vmem, ⟨20, _⟩ => ⟨S4000x64, .f32⟩
  | .local _ .vmem, ⟨21, _⟩ => ⟨S4000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  concatenates_S4000x32_S4000x32_S4000x32_S4000x32_S4000x128_d1 : Shape.Concatenates [S4000x32, S4000x32, S4000x32, S4000x32] S4000x128 1
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S4000x64_S4000x64 : S4000x64.ShapeCasts S4000x64
  concatenates_S4000x32_S4000x64_S4000x32_S4000x128_d1 : Shape.Concatenates [S4000x32, S4000x64, S4000x32] S4000x128 1
  gather_S64x32_S100000x1_S100000x32_1_0_n_n_0_1_132_wf : GatherDims.WF S64x32 S100000x1 S100000x32 [1] [0] [] [0] [] 1 ![1, 32]
  gather_S100000x32_S1600000x1_S1600000x32_1_0_n_n_0_1_132_wf : GatherDims.WF S100000x32 S1600000x1 S1600000x32 [1] [0] [] [0] [] 1 ![1, 32]
  dot_S4000x128_S128x64_S4000x64_1_0_0_1_n_n_wf : DotDims.WF S4000x128 S128x64 S4000x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S1600000x32.size a
  hwx0_0 : ∀ i : grid0.Coords, EltTy.bits .f32 = 32 ∨ (Rect.block (s := S1600000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S1600000x32.size a
  hwx0_1 : ∀ i : grid0.Coords, EltTy.bits .f32 = 32 ∨ (Rect.block (s := S1600000x32) S4000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S1600000x32.size a
  hwx0_2 : ∀ i : grid0.Coords, EltTy.bits .f32 = 32 ∨ (Rect.block (s := S1600000x32) S4000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x32.size a ≤ S1600000x32.size a
  hwx0_3 : ∀ i : grid0.Coords, EltTy.bits .f32 = 32 ∨ (Rect.block (s := S1600000x32) S4000x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S1600000x64.size a
  hwx0_6 : ∀ i : grid0.Coords, EltTy.bits .f32 = 32 ∨ (Rect.block (s := S1600000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S100000x32.size a
  hwx1_2 : ∀ i : grid1.Coords, EltTy.bits .f32 = 32 ∨ (Rect.block (s := S100000x32) S4000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def gather_S64x32_S100000x1_S100000x32_1_0_n_n_0_1_132 : GatherDims S64x32 S100000x1 S100000x32 where
  offsetDims := [1]
  collapsedSliceDims := [0]
  operandBatchingDims := []
  startIndicesBatchingDims := []
  startIndexMap := [0]
  indexVectorDim := 1
  sliceSizes := ![1, 32]
  wf := gather_S64x32_S100000x1_S100000x32_1_0_n_n_0_1_132_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v24) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x32 : Shape := ⟨2, ![1600000, 32]⟩
abbrev S64x32 : Shape := ⟨2, ![64, 32]⟩
abbrev S100000 : Shape := ⟨1, ![100000]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S1600000x1 : Shape := ⟨2, ![1600000, 1]⟩
abbrev S1600000x128 : Shape := ⟨2, ![1600000, 128]⟩
abbrev S1600000x64 : Shape := ⟨2, ![1600000, 64]⟩
abbrev S1x64 : Shape := ⟨2, ![1, 64]⟩
abbrev S100000x64 : Shape := ⟨2, ![100000, 64]⟩
abbrev S100000x128 : Shape := ⟨2, ![100000, 128]⟩

abbrev nBuf : Space → Nat
  | .hbm => 69
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x32, .f32⟩
  | .hbm, ⟨3, _⟩ => ⟨S64x32, .f32⟩
  | .hbm, ⟨4, _⟩ => ⟨S100000, .i32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000x32, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x32, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x32, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x32, .f32⟩
  | .hbm, ⟨49, _⟩ => ⟨S1600000x128, .f32⟩
  | .hbm, ⟨50, _⟩ => ⟨S1600000x64, .f32⟩
  | .hbm, ⟨51, _⟩ => ⟨S1x64, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S100000x128, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_cst : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_cst : Ref sig .tc := ⟨.hbm, 66, rfl⟩
abbrev main_call1_v0 : Ref sig .tc := ⟨.hbm, 67, rfl⟩
abbrev main_v46 : Ref sig .tc := ⟨.hbm, 68, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x32_S1600000x32_S1600000x128_d1 : Shape.Concatenates [S1600000x32, S1600000x32, S1600000x32, S1600000x32] S1600000x128 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  concatenates_S100000x32_S100000x64_S100000x32_S100000x128_d1 : Shape.Concatenates [S100000x32, S100000x64, S100000x32] S100000x128 1
  bcast_S1x64_S100000x64_0_1 : S1x64.BroadcastsInDim S100000x64 (![0, 1] : Fin 2 → Fin S100000x64.rank)
  gather_S64x32_S100000x1_S100000x32_1_0_n_n_0_1_132_wf : GatherDims.WF S64x32 S100000x1 S100000x32 [1] [0] [] [0] [] 1 ![1, 32]
  gather_S100000x32_S1600000x1_S1600000x32_1_0_n_n_0_1_132_wf : GatherDims.WF S100000x32 S1600000x1 S1600000x32 [1] [0] [] [0] [] 1 ![1, 32]
  dot_S1600000x128_S128x64_S1600000x64_1_0_0_1_n_n_wf : DotDims.WF S1600000x128 S128x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []

variable [Facts₀]

def gather_S64x32_S100000x1_S100000x32_1_0_n_n_0_1_132 : GatherDims S64x32 S100000x1 S100000x32 where
  offsetDims := [1]
  collapsedSliceDims := [0]
  operandBatchingDims := []
  startIndicesBatchingDims := []
  startIndexMap := [0]
  indexVectorDim := 1
  sliceSizes := ![1, 32]
  wf := gather_S64x32_S100000x1_S100000x32_1_0_n_n_0_1_132_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel program's run with its result named.

  The program is four segments: the host operations that gather the rows, the edge region, the host operations
  that sum the messages per destination node, the node region. Every weakly fair execution ends with each buffer
  at the contents the segments leave one after the other; in particular the result's buffer ends at what the node
  region's write-backs leave in it (the final array of its output window), and the arguments end as launched.
-/
import proofs.«113929_j70153995813296_2_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result's buffer at the final
    array of the node region's output window and every argument as launched. -/
theorem run_named : θ_run defs (onTc (τ := τ) (main (F := F))) ⟨m, fun _ => 0, ρ⟩ (fun r => ∀ c : Dev nD,
      r.2.mem ((c.tc : Thread nD τ).loc main_v36) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v36 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.KernelRun

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibDenseLayer.lean ====
/-
  A dense layer, written two ways, on the extended reals.

  * `matmul_zero_eq_dotGeneral`: a plain m×k by k×n matrix product accumulated into the zero matrix is the host's
    plain product of the same matrices: both read, at (a, b), the sum over the contracted coordinate c of
    A(a, c) · B(c, b).
  * `biasRow_eq`: a length-b vector cast to a [1, b] row and repeated down a rows is the same [a, b] array as the
    host's two broadcasts (first to [1, b] along axis 1, then to [a, b]): both read, at (p, q), the vector at q.
  * `dense_apply`: the host's plain product plus the bias row, read at an entry.
  * `splat_eq`: a scalar repeated over a shape is the host's broadcast of the rank-zero constant of the same bits.
-/
import Idealize.ShloMosaic.PureOps.Ideal.Laws
import Idealize.ShloMosaic.Lib.ValueIdx
import Idealize.ShloMosaic.Lib.ValueLayout
import Idealize.ShloMosaic.Lib.Pipeline.Value
import proofs.«113929_j70153995813296_2_alg».proof.Proof.LibPlainMatmul
import proofs.«113929_j70153995813296_2_alg».proof.Proof.LibPlainDot

noncomputable section

namespace Cert.LibDenseLayer

open Idealize.ShloMosaic Idealize.ShloMosaic.ValueIdx

/-- Accumulated into zero, the plain product of an m×k by a k×n matrix is the host's plain product. -/
theorem matmul_zero_eq_dotGeneral {m k n : Nat} {φ₁ φ₂ : FTy} (prec : Option ContractPrecision)
    (A : FVec Ideal ⟨2, ![m, k]⟩ φ₁) (B : FVec Ideal ⟨2, ![k, n]⟩ φ₂) :
    matmul (DotDims.plain m k n) prec A B (constant ⟨2, ![m, n]⟩ .f32 0x00000000#32)
      = Host.dotGeneral (DotDims.plain m k n) prec A B := by
  funext i
  obtain ⟨a, b, rfl⟩ : ∃ (a : Fin m) (b : Fin n), i = ix2 a b := ⟨i 0, i 1, eq_ix2 i⟩
  rw [matmul_plain_zero_apply, hostDotGeneral_plain_apply]

/-- A dense layer at an entry: the host's plain product plus the bias row reads, at (a, b), the sum over the contracted
    coordinate c of A(a, c) · B(c, b), plus the bias at b. -/
theorem dense_apply {m k n : Nat} {φ : FTy} (prec : Option ContractPrecision)
    (A : FVec Ideal ⟨2, ![m, k]⟩ φ) (B : FVec Ideal ⟨2, ![k, n]⟩ φ) (v : FVec Ideal ⟨1, ![n]⟩ φ)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    addf (Host.dotGeneral (DotDims.plain m k n) prec A B)
        (broadcastInDim ⟨2, ![m, n]⟩ ![0, 1] g2 (broadcastInDim ⟨2, ![1, n]⟩ ![1] g1 v)) (ix2 a b)
      = (∑ c : Fin k, A (ix2 a c) * B (ix2 c b)) + v (ix1 b) := by
  show Host.dotGeneral (DotDims.plain m k n) prec A B (ix2 a b)
      + broadcastInDim ⟨2, ![m, n]⟩ ![0, 1] g2 (broadcastInDim ⟨2, ![1, n]⟩ ![1] g1 v) (ix2 a b) = _
  rw [hostDotGeneral_plain_apply]
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

variable {α : Type}

/-- A vector as a row repeated down the rows, the vector way and the host way. -/
theorem biasRow_eq {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (g1 : (⟨1, ![b]⟩ : Shape).BroadcastsInDim ⟨2, ![1, b]⟩ ![1])
    (g2 : (⟨2, ![1, b]⟩ : Shape).BroadcastsInDim ⟨2, ![a, b]⟩ ![0, 1]) :
    broadcastTo ⟨2, ![a, b]⟩ (shapeCast ⟨2, ![1, b]⟩ v h1) h2
      = broadcastInDim ⟨2, ![a, b]⟩ ![0, 1] g2 (broadcastInDim ⟨2, ![1, b]⟩ ![1] g1 v) := by
  funext i
  obtain ⟨p, q, rfl⟩ : ∃ (p : Fin a) (q : Fin b), i = ix2 p q := ⟨i 0, i 1, eq_ix2 i⟩
  rw [broadcastTo_1b_ab_apply, shapeCast_a_1a_apply]
  have hq : q.val = if b = 1 then 0 else q.val := by
    split
    · have := q.isLt; omega
    · rfl
  have hk2 : ∀ ax : Fin 2, ((ix2 (0 : Fin 1) q : (⟨2, ![1, b]⟩ : Shape).Idx) ax).val
      = if (⟨2, ![1, b]⟩ : Shape).size ax = 1 then 0 else ((ix2 p q : (⟨2, ![a, b]⟩ : Shape).Idx) ((![0, 1] : Fin 2 → Fin 2) ax)).val := fun ax =>
    match ax with
    | ⟨0, _⟩ => rfl
    | ⟨1, _⟩ => hq
  have hk1 : ∀ ax : Fin 1, ((ix1 q : (⟨1, ![b]⟩ : Shape).Idx) ax).val
      = if (⟨1, ![b]⟩ : Shape).size ax = 1 then 0 else ((ix2 (0 : Fin 1) q : (⟨2, ![1, b]⟩ : Shape).Idx) ((![1] : Fin 1 → Fin 2) ax)).val := fun ax =>
    match ax with
    | ⟨0, _⟩ => hq
  rw [broadcastInDim_apply _ g2 _ (ix2 p q) (ix2 (0 : Fin 1) q) hk2, broadcastInDim_apply _ g1 v (ix2 (0 : Fin 1) q) (ix1 q) hk1]

/-- A scalar repeated over a shape is the host's broadcast of the rank-zero constant of the same bits. -/
theorem splat_eq {F : FTy → Type} [FloatOps F] {s : Shape} {φ : FTy} (bits : BitVec φ.bits)
    (g : (⟨0, ![]⟩ : Shape).BroadcastsInDim s ![]) :
    (broadcast s (Scalar.ofBits φ bits : F φ) : FVec F s φ)
      = broadcastInDim s ![] g (constant (F := F) ⟨0, ![]⟩ φ bits) := by
  funext i
  rfl

end Cert.LibDenseLayer

end
-- ==== Proof.LibDenseRows.lean ====
/-
  A dense layer on a block of rows, on the extended reals.

  For an m×k matrix X, a k×n matrix W and a one-row matrix r the function `denseRows X W r` reads, at (a, b),
  Σ_c X(a, c) · W(c, b) + r(0, b). It is computed three ways:
  * a block's product into the zero accumulator plus the row repeated down the block (`block_dense`);
  * the host's product plus its two broadcasts of a length-n vector v, r being that vector laid out as a row
    (`host_dense`);
  * with X first clamped below at zero, which is done entry by entry and so commutes with reading a block
    (`clamp0`, `host_clamp0`, `block_clamp0`).
  A narrowing or a widening change of float format is the identity on the extended reals, so neither shows.
-/
import Idealize.ShloMosaic.PureOps.Ideal.Laws
import Idealize.ShloMosaic.Lib.ValueIdx
import Idealize.ShloMosaic.Lib.ValueLayout
import Idealize.ShloMosaic.Lib.Pipeline.Value
import proofs.«113929_j70153995813296_2_alg».proof.Proof.LibDenseLayer

noncomputable section

open scoped BigOperators

namespace Cert.DenseRows

open Idealize.ShloMosaic Idealize.ShloMosaic.ValueIdx

/-- Row a of X against column b of W, plus the row matrix r at column b. -/
def denseRows {m k n : ℕ} (X : (⟨2, ![m, k]⟩ : Shape).Idx → EReal) (W : (⟨2, ![k, n]⟩ : Shape).Idx → EReal)
    (r : (⟨2, ![1, n]⟩ : Shape).Idx → EReal) : (⟨2, ![m, n]⟩ : Shape).Idx → EReal :=
  fun i => (∑ c : Fin k, X (ix2 (i 0) c) * W (ix2 c (i 1))) + r (ix2 (0 : Fin 1) (i 1))

theorem denseRows_apply {m k n : ℕ} (X : (⟨2, ![m, k]⟩ : Shape).Idx → EReal) (W : (⟨2, ![k, n]⟩ : Shape).Idx → EReal)
    (r : (⟨2, ![1, n]⟩ : Shape).Idx → EReal) (a : Fin m) (b : Fin n) :
    denseRows X W r (ix2 a b) = (∑ c : Fin k, X (ix2 a c) * W (ix2 c b)) + r (ix2 (0 : Fin 1) b) := rfl

/-- A block's plain product into the zero accumulator, plus the one-row matrix repeated down the block, then narrowed:
    the dense layer of the block's rows. -/
theorem block_dense {m k n : ℕ} {φ₁ φ₂ : FTy} (x0 : FVec Ideal ⟨2, ![m, k]⟩ φ₁) (x1 : FVec Ideal ⟨2, ![k, n]⟩ φ₂)
    (x2 : FVec Ideal ⟨2, ![1, n]⟩ .f32)
    (h1 : (⟨2, ![1, n]⟩ : Shape).ShapeCasts ⟨2, ![1, n]⟩) (h2 : (⟨2, ![1, n]⟩ : Shape).Broadcasts ⟨2, ![m, n]⟩)
    (ht : FTy.bf16.bits < FTy.f32.bits) :
    (truncf .bf16 (addf (matmul (DotDims.plain m k n) none x0 x1 (constant ⟨2, ![m, n]⟩ .f32 0x00000000#32))
        (broadcastTo ⟨2, ![m, n]⟩ (shapeCast ⟨2, ![1, n]⟩ x2 h1) h2)) ht : FVec Ideal ⟨2, ![m, n]⟩ .bf16)
      = denseRows x0 x1 x2 := by
  funext i
  obtain ⟨a, b, rfl⟩ : ∃ (a : Fin m) (b : Fin n), i = ix2 a b := ⟨i 0, i 1, eq_ix2 i⟩
  show matmul (DotDims.plain m k n) none x0 x1 (constant ⟨2, ![m, n]⟩ .f32 0x00000000#32) (ix2 a b)
      + broadcastTo ⟨2, ![m, n]⟩ (shapeCast ⟨2, ![1, n]⟩ x2 h1) h2 (ix2 a b) = _
  rw [matmul_plain_zero_apply, broadcastTo_1b_ab_apply, shapeCast_self, denseRows_apply]

/-- The host's plain product plus its two broadcasts of a length-n vector: the dense layer with that vector as the row. -/
theorem host_dense {m k n : ℕ} (A : FVec Ideal ⟨2, ![m, k]⟩ .f32) (B : FVec Ideal ⟨2, ![k, n]⟩ .f32)
    (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (h : (⟨1, ![n]⟩ : Shape).ShapeCasts ⟨2, ![1, n]⟩) :
    addf (Host.dotGeneral (DotDims.plain m k n) none A B)
        (broadcastInDim ⟨2, ![m, n]⟩ ![0, 1] g2 (broadcastInDim ⟨2, ![1, n]⟩ ![1] g1 v))
      = denseRows A B (shapeCast ⟨2, ![1, n]⟩ v h) := by
  funext i
  obtain ⟨a, b, rfl⟩ : ∃ (a : Fin m) (b : Fin n), i = ix2 a b := ⟨i 0, i 1, eq_ix2 i⟩
  rw [Cert.LibDenseLayer.dense_apply, denseRows_apply, shapeCast_a_1a_apply]

/-- An array clamped below at zero, entry by entry (zero kept as the all-zero f32 word). -/
def clamp0 {s : Shape} (X : s.Idx → EReal) : s.Idx → EReal :=
  fun i => max (X i) (Ideal.ofBits .f32 0x00000000#32)

/-- The host's maximum with the broadcast zero constant is that clamp. -/
theorem host_clamp0 {s : Shape} (X : FVec Ideal s .f32) (g : (⟨0, ![]⟩ : Shape).BroadcastsInDim s ![]) :
    maximumf X (broadcastInDim s ![] g (constant (F := Ideal) ⟨0, ![]⟩ .f32 0x00000000#32)) = clamp0 X := by
  funext i
  rfl

/-- A block's maximum with the splat of zero, after a cast to its own shape and before narrowing, is that clamp. -/
theorem block_clamp0 {s : Shape} (x : FVec Ideal s .f32) (h : s.ShapeCasts s) (ht : FTy.bf16.bits < FTy.f32.bits) :
    (truncf .bf16 (maximumf (shapeCast s x h) (broadcast s (Scalar.ofBits .f32 0x00000000#32 : Ideal .f32))) ht
        : FVec Ideal s .bf16) = clamp0 x := by
  rw [shapeCast_self]
  funext i
  rfl

/-- Clamping commutes with reading a sub-array: it is done entry by entry. -/
theorem clamp0_comp {s t : Shape} (X : s.Idx → EReal) (e : t.Idx → s.Idx) : (fun y => clamp0 X (e y)) = clamp0 (fun y => X (e y)) := rfl

end Cert.DenseRows

end
-- ==== Proof.LibReluRows.lean ====
/-
  A dense layer clamped below at zero, row by row, on the extended reals.

  For an m×k matrix X, a k×n matrix W and a one-row matrix r the function `reluRows X W r` reads, at (a, b),
  max(Σ_c X(a, c) · W(c, b) + r(0, b), 0): a dense layer (`denseRows`) followed by the clamp at zero (`clamp0`).
  It is computed two ways:
  * on a block of rows held in vector registers: the product into the zero accumulator, plus the one-row matrix
    repeated down the block, then the maximum with the splat of zero (`block_reluRows`);
  * by host operations on the whole array: the plain product, plus the two broadcasts of a length-n vector v (r
    being v laid out as a row), then the maximum with the broadcast zero constant (`host_reluRows`).
  Row a of the result depends on row a of X only, so the result of a block of rows of X is the same block of rows
  of the result of X (`reluRows_rows`).
-/
import Idealize.ShloMosaic.PureOps.Ideal.Laws
import Idealize.ShloMosaic.Lib.ValueIdx
import Idealize.ShloMosaic.Lib.ValueLayout
import Idealize.ShloMosaic.Lib.Pipeline.Value
import proofs.«113929_j70153995813296_2_alg».proof.Proof.LibDenseRows

noncomputable section

open scoped BigOperators

namespace Cert.ReluRows

open Idealize.ShloMosaic Idealize.ShloMosaic.ValueIdx Cert.DenseRows

/-- Row a of X against column b of W, plus the row matrix r at column b, clamped below at zero. -/
def reluRows {m k n : ℕ} (X : (⟨2, ![m, k]⟩ : Shape).Idx → EReal) (W : (⟨2, ![k, n]⟩ : Shape).Idx → EReal)
    (r : (⟨2, ![1, n]⟩ : Shape).Idx → EReal) : (⟨2, ![m, n]⟩ : Shape).Idx → EReal :=
  clamp0 (denseRows X W r)

theorem reluRows_apply {m k n : ℕ} (X : (⟨2, ![m, k]⟩ : Shape).Idx → EReal) (W : (⟨2, ![k, n]⟩ : Shape).Idx → EReal)
    (r : (⟨2, ![1, n]⟩ : Shape).Idx → EReal) (a : Fin m) (b : Fin n) :
    reluRows X W r (ix2 a b)
      = max ((∑ c : Fin k, X (ix2 a c) * W (ix2 c b)) + r (ix2 (0 : Fin 1) b)) (Ideal.ofBits .f32 0x00000000#32) := rfl

/-- A block's plain product into the zero accumulator (the block first cast to its own shape), plus the one-row matrix
    repeated down the block, then the maximum with the splat of zero: the clamped dense layer of the block's rows. -/
theorem block_reluRows {m k n : ℕ} {φ₁ φ₂ : FTy} (x0 : FVec Ideal ⟨2, ![m, k]⟩ φ₁) (x1 : FVec Ideal ⟨2, ![k, n]⟩ φ₂)
    (x2 : FVec Ideal ⟨2, ![1, n]⟩ .f32)
    (h0 : (⟨2, ![m, k]⟩ : Shape).ShapeCasts ⟨2, ![m, k]⟩)
    (h1 : (⟨2, ![1, n]⟩ : Shape).ShapeCasts ⟨2, ![1, n]⟩) (h2 : (⟨2, ![1, n]⟩ : Shape).Broadcasts ⟨2, ![m, n]⟩) :
    maximumf (addf (matmul (DotDims.plain m k n) none (shapeCast ⟨2, ![m, k]⟩ x0 h0) x1 (constant ⟨2, ![m, n]⟩ .f32 0x00000000#32))
        (broadcastTo ⟨2, ![m, n]⟩ (shapeCast ⟨2, ![1, n]⟩ x2 h1) h2))
      (broadcast ⟨2, ![m, n]⟩ (Scalar.ofBits .f32 0x00000000#32 : Ideal .f32))
      = reluRows x0 x1 x2 := by
  have e : addf (matmul (DotDims.plain m k n) none (shapeCast ⟨2, ![m, k]⟩ x0 h0) x1 (constant ⟨2, ![m, n]⟩ .f32 0x00000000#32))
      (broadcastTo ⟨2, ![m, n]⟩ (shapeCast ⟨2, ![1, n]⟩ x2 h1) h2) = denseRows x0 x1 x2 := by
    funext i
    obtain ⟨a, b, rfl⟩ : ∃ (a : Fin m) (b : Fin n), i = ix2 a b := ⟨i 0, i 1, eq_ix2 i⟩
    show matmul (DotDims.plain m k n) none (shapeCast ⟨2, ![m, k]⟩ x0 h0) x1 (constant ⟨2, ![m, n]⟩ .f32 0x00000000#32) (ix2 a b)
        + broadcastTo ⟨2, ![m, n]⟩ (shapeCast ⟨2, ![1, n]⟩ x2 h1) h2 (ix2 a b) = _
    rw [matmul_plain_zero_apply, broadcastTo_1b_ab_apply, shapeCast_self, shapeCast_self, denseRows_apply]
  rw [e]
  funext i
  rfl

/-- The host's plain product plus its two broadcasts of a length-n vector, then the maximum with the broadcast zero
    constant: the clamped dense layer with that vector as the row. -/
theorem host_reluRows {m k n : ℕ} (A : FVec Ideal ⟨2, ![m, k]⟩ .f32) (B : FVec Ideal ⟨2, ![k, n]⟩ .f32)
    (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![])
    (h : (⟨1, ![n]⟩ : Shape).ShapeCasts ⟨2, ![1, n]⟩) :
    maximumf (addf (Host.dotGeneral (DotDims.plain m k n) none A B)
        (broadcastInDim ⟨2, ![m, n]⟩ ![0, 1] g2 (broadcastInDim ⟨2, ![1, n]⟩ ![1] g1 v)))
      (broadcastInDim ⟨2, ![m, n]⟩ ![] g0 (constant (F := Ideal) ⟨0, ![]⟩ .f32 0x00000000#32))
      = reluRows A B (shapeCast ⟨2, ![1, n]⟩ v h) := by
  rw [host_dense A B v g1 g2 h, host_clamp0]
  rfl

/-- Row p of the result depends on row p of X only: where a block x0 holds, row for row, the rows e p of X, the
    result of the block at (p, q) is the result of X at (e p, q). -/
theorem reluRows_rows {m M k n : ℕ} (X : (⟨2, ![M, k]⟩ : Shape).Idx → EReal) (W : (⟨2, ![k, n]⟩ : Shape).Idx → EReal)
    (r : (⟨2, ![1, n]⟩ : Shape).Idx → EReal) (e : Fin m → Fin M) (x0 : (⟨2, ![m, k]⟩ : Shape).Idx → EReal)
    (h : ∀ (p : Fin m) (c : Fin k), x0 (ix2 p c) = X (ix2 (e p) c)) (p : Fin m) (q : Fin n) :
    reluRows x0 W r (ix2 p q) = reluRows X W r (ix2 (e p) q) := by
  rw [reluRows_apply, reluRows_apply]
  simp only [h]

end Cert.ReluRows

end
-- ==== Proof.LibReluBlock.lean ====
/-
  A dense layer clamped below at zero, computed on a block of rows from a bias given as a vector.

  For an m×k block X, a k×n matrix W and a length-n vector v: the product of X and W accumulated into the zero
  matrix, plus v laid out as a [1, n] row and repeated down the m rows, then the maximum with the splat of zero, is
  the function that reads, at (a, b), max(Σ_c X(a, c) · W(c, b) + v(b), 0), the clamped dense layer of X with v
  as its row (reluRows). The host computes the same function from its own product and broadcasts
  (host_reluRows), with the same row.
-/
import Idealize.ShloMosaic.PureOps.Ideal.Laws
import Idealize.ShloMosaic.Lib.ValueIdx
import Idealize.ShloMosaic.Lib.ValueLayout
import Idealize.ShloMosaic.Lib.Pipeline.Value
import proofs.«113929_j70153995813296_2_alg».proof.Proof.LibReluRows

noncomputable section

open scoped BigOperators

namespace Cert.LibReluBlock

open Idealize.ShloMosaic Idealize.ShloMosaic.ValueIdx Cert.DenseRows Cert.ReluRows

/-- A block's plain product into the zero accumulator, plus a length-n vector cast to a row and repeated down the
    block, then the maximum with the splat of zero: the clamped dense layer of the block's rows, that vector its row. -/
theorem block_reluRows_vec {m k n : ℕ} {φ₁ φ₂ : FTy} (X : FVec Ideal ⟨2, ![m, k]⟩ φ₁) (W : FVec Ideal ⟨2, ![k, n]⟩ φ₂)
    (v : FVec Ideal ⟨1, ![n]⟩ .f32)
    (h1 : (⟨1, ![n]⟩ : Shape).ShapeCasts ⟨2, ![1, n]⟩) (h2 : (⟨2, ![1, n]⟩ : Shape).Broadcasts ⟨2, ![m, n]⟩) :
    maximumf (addf (matmul (DotDims.plain m k n) none X W (constant ⟨2, ![m, n]⟩ .f32 0x00000000#32))
        (broadcastTo ⟨2, ![m, n]⟩ (shapeCast ⟨2, ![1, n]⟩ v h1) h2))
      (broadcast ⟨2, ![m, n]⟩ (Scalar.ofBits .f32 0x00000000#32 : Ideal .f32))
      = reluRows X W (shapeCast ⟨2, ![1, n]⟩ v h1) := by
  have e : addf (matmul (DotDims.plain m k n) none X W (constant ⟨2, ![m, n]⟩ .f32 0x00000000#32))
      (broadcastTo ⟨2, ![m, n]⟩ (shapeCast ⟨2, ![1, n]⟩ v h1) h2) = denseRows X W (shapeCast ⟨2, ![1, n]⟩ v h1) := by
    funext i
    obtain ⟨a, b, rfl⟩ : ∃ (a : Fin m) (b : Fin n), i = ix2 a b := ⟨i 0, i 1, eq_ix2 i⟩
    show matmul (DotDims.plain m k n) none X W (constant ⟨2, ![m, n]⟩ .f32 0x00000000#32) (ix2 a b)
        + broadcastTo ⟨2, ![m, n]⟩ (shapeCast ⟨2, ![1, n]⟩ v h1) h2 (ix2 a b) = _
    rw [matmul_plain_zero_apply, broadcastTo_1b_ab_apply, denseRows_apply]
  rw [e]
  funext i
  rfl

end Cert.LibReluBlock

end
-- ==== Proof.Bodies.lean ====
/-
  What each of the two kernel bodies computes from its loaded blocks.

  The edge body joins four [4000, 32] blocks side by side into a [4000, 128] block, multiplies it by the
  [128, 64] weights into a zero accumulator, adds the bias as a row repeated down the block and clamps below at
  zero: the clamped dense layer of the joined block. The node body does the same with three blocks of widths
  32, 64 and 32. (A cast of a block to its own shape is the identity.)
-/
import proofs.«113929_j70153995813296_2_alg».proof.Proof.Gen.KernelIdeal.Skeleton
import proofs.«113929_j70153995813296_2_alg».proof.Proof.LibReluBlock
import Idealize.ShloMosaic.Lib.Pipeline.Value

noncomputable section

namespace Cert.KernelIdeal.Bodies

open Idealize.ShloMosaic Idealize.ShloMosaic.ValueIdx Cert.KernelIdeal Cert.KernelIdeal.Gen Cert.ReluRows

/-- The edge body's stored value: the clamped dense layer of the four loaded blocks joined side by side. -/
theorem edge_payload (x0 x1 x2 x3 : Vec Ideal S4000x32 .f32) (w : Vec Ideal S128x64 .f32) (b : Vec Ideal S64 .f32) :
    k0_pay1 (F := Ideal) x0 x1 x2 x3 w b
      = reluRows (concatenate S4000x128 1 [⟨S4000x32, x0⟩, ⟨S4000x32, x1⟩, ⟨S4000x32, x2⟩, ⟨S4000x32, x3⟩]
          concatenates_S4000x32_S4000x32_S4000x32_S4000x32_S4000x128_d1) w (shapeCast S1x64 b shapeCasts_S64_S1x64) := by
  unfold k0_pay1
  rw [shapeCast_self x0, shapeCast_self x1, shapeCast_self x3]
  exact Cert.LibReluBlock.block_reluRows_vec
    (concatenate S4000x128 1 [⟨S4000x32, x0⟩, ⟨S4000x32, x1⟩, ⟨S4000x32, x2⟩, ⟨S4000x32, x3⟩]
      concatenates_S4000x32_S4000x32_S4000x32_S4000x32_S4000x128_d1) w b shapeCasts_S64_S1x64 broadcasts_S1x64_S4000x64

/-- The node body's stored value: the clamped dense layer of the three loaded blocks joined side by side. -/
theorem node_payload (x0 : Vec Ideal S4000x32 .f32) (x1 : Vec Ideal S4000x64 .f32) (x2 : Vec Ideal S4000x32 .f32)
    (w : Vec Ideal S128x64 .f32) (b : Vec Ideal S64 .f32) :
    k1_pay1 (F := Ideal) x0 x1 x2 w b
      = reluRows (concatenate S4000x128 1 [⟨S4000x32, x0⟩, ⟨S4000x64, x1⟩, ⟨S4000x32, x2⟩]
          concatenates_S4000x32_S4000x64_S4000x32_S4000x128_d1) w (shapeCast S1x64 b shapeCasts_S64_S1x64) := by
  unfold k1_pay1
  rw [shapeCast_self x1, shapeCast_self x2]
  exact Cert.LibReluBlock.block_reluRows_vec
    (concatenate S4000x128 1 [⟨S4000x32, x0⟩, ⟨S4000x64, x1⟩, ⟨S4000x32, x2⟩]
      concatenates_S4000x32_S4000x64_S4000x32_S4000x128_d1) w b shapeCasts_S64_S1x64 broadcasts_S1x64_S4000x64

end Cert.KernelIdeal.Bodies

end
-- ==== Proof.LibColumnPieces.lean ====
/-
  Arrays laid side by side, read a column at a time; and a block of rows of such a join.

  Rank-two arrays with the same number of rows, joined along their second axis, give an array whose entry at
  (p, j) is the entry at (p, j - pre) of the piece whose span of columns holds j, pre being the number of columns of
  the pieces before it (cols_piece). Row p of the join is made of row p of each piece, and of nothing else:
  so when each of several blocks holds, row for row, the rows e p of its own array, the join of the blocks holds the
  rows e p of the join of the arrays (cols4_rows for four pieces, cols3_rows for three, of any widths).
-/
import Idealize.ShloMosaic.Lib.Pipeline.Value
import Idealize.ShloMosaic.Lib.ValueIdx

namespace Cert.LibColumnPieces

open Idealize.ShloMosaic Idealize.ShloMosaic.ValueIdx

variable {α : Type}

/-- Joined along the second axis: the piece at position k of the list, an [m, n] array with pre columns
    before it, is what the join reads at column pre + q, at its own column q. -/
theorem cols_piece {m N : ℕ} (xs : List ((s : Shape) × (s.Idx → α)))
    (h : Shape.Concatenates (xs.map (·.1)) ⟨2, ![m, N]⟩ (1 : Fin 2))
    (k : ℕ) (hk : k < xs.length) (n : ℕ) (x : (⟨2, ![m, n]⟩ : Shape).Idx → α) (hxk : xs[k] = ⟨⟨2, ![m, n]⟩, x⟩)
    (pre : ℕ)
    (hpre : (((xs.take k).map (·.1)).map fun s => if h : s.rank = (⟨2, ![m, N]⟩ : Shape).rank then s.size ((1 : Fin 2).cast h.symm) else 0).sum = pre)
    (p : Fin m) (q : Fin n) (j : Fin N) (hj : pre + q.val = j.val) :
    concatenate ⟨2, ![m, N]⟩ (1 : Fin 2) xs h (ix2 p j) = x (ix2 p q) :=
  concatenate_apply_piece (t := ⟨2, ![m, N]⟩) (1 : Fin 2) xs h (ix2 p j) k hk ⟨2, ![m, n]⟩ x hxk rfl pre hpre (ix2 p q)
    (fun b hb =>
      match b, hb with
      | ⟨0, _⟩, _ => rfl
      | ⟨1, _⟩, hb => absurd rfl hb)
    hj

/-- Four arrays side by side, and four blocks that hold, row for row, the rows e p of those arrays: the join of
    the blocks holds, row for row, the rows e p of the join of the arrays. -/
theorem cols4_rows {m M n0 n1 n2 n3 N : ℕ}
    (A0 : (⟨2, ![M, n0]⟩ : Shape).Idx → α) (A1 : (⟨2, ![M, n1]⟩ : Shape).Idx → α)
    (A2 : (⟨2, ![M, n2]⟩ : Shape).Idx → α) (A3 : (⟨2, ![M, n3]⟩ : Shape).Idx → α)
    (a0 : (⟨2, ![m, n0]⟩ : Shape).Idx → α) (a1 : (⟨2, ![m, n1]⟩ : Shape).Idx → α)
    (a2 : (⟨2, ![m, n2]⟩ : Shape).Idx → α) (a3 : (⟨2, ![m, n3]⟩ : Shape).Idx → α)
    (H : Shape.Concatenates [(⟨2, ![M, n0]⟩ : Shape), ⟨2, ![M, n1]⟩, ⟨2, ![M, n2]⟩, ⟨2, ![M, n3]⟩] ⟨2, ![M, N]⟩ (1 : Fin 2))
    (h : Shape.Concatenates [(⟨2, ![m, n0]⟩ : Shape), ⟨2, ![m, n1]⟩, ⟨2, ![m, n2]⟩, ⟨2, ![m, n3]⟩] ⟨2, ![m, N]⟩ (1 : Fin 2))
    (e : Fin m → Fin M)
    (h0 : ∀ (p : Fin m) (q : Fin n0), a0 (ix2 p q) = A0 (ix2 (e p) q))
    (h1 : ∀ (p : Fin m) (q : Fin n1), a1 (ix2 p q) = A1 (ix2 (e p) q))
    (h2 : ∀ (p : Fin m) (q : Fin n2), a2 (ix2 p q) = A2 (ix2 (e p) q))
    (h3 : ∀ (p : Fin m) (q : Fin n3), a3 (ix2 p q) = A3 (ix2 (e p) q))
    (p : Fin m) (j : Fin N) :
    concatenate ⟨2, ![m, N]⟩ (1 : Fin 2) [⟨⟨2, ![m, n0]⟩, a0⟩, ⟨⟨2, ![m, n1]⟩, a1⟩, ⟨⟨2, ![m, n2]⟩, a2⟩, ⟨⟨2, ![m, n3]⟩, a3⟩] h (ix2 p j)
      = concatenate ⟨2, ![M, N]⟩ (1 : Fin 2) [⟨⟨2, ![M, n0]⟩, A0⟩, ⟨⟨2, ![M, n1]⟩, A1⟩, ⟨⟨2, ![M, n2]⟩, A2⟩, ⟨⟨2, ![M, n3]⟩, A3⟩] H (ix2 (e p) j) := by
  have hN : n0 + (n1 + (n2 + (n3 + 0))) = N := h.2.2
  have hj := j.isLt
  by_cases c0 : j.val < n0
  · rw [cols_piece [⟨⟨2, ![m, n0]⟩, a0⟩, ⟨⟨2, ![m, n1]⟩, a1⟩, ⟨⟨2, ![m, n2]⟩, a2⟩, ⟨⟨2, ![m, n3]⟩, a3⟩] h 0 (by simp) n0 a0 rfl 0 (by simp) p ⟨j.val, c0⟩ j (by simp),
      cols_piece [⟨⟨2, ![M, n0]⟩, A0⟩, ⟨⟨2, ![M, n1]⟩, A1⟩, ⟨⟨2, ![M, n2]⟩, A2⟩, ⟨⟨2, ![M, n3]⟩, A3⟩] H 0 (by simp) n0 A0 rfl 0 (by simp) (e p) ⟨j.val, c0⟩ j (by simp), h0]
  · by_cases c1 : j.val < n0 + n1
    · rw [cols_piece [⟨⟨2, ![m, n0]⟩, a0⟩, ⟨⟨2, ![m, n1]⟩, a1⟩, ⟨⟨2, ![m, n2]⟩, a2⟩, ⟨⟨2, ![m, n3]⟩, a3⟩] h 1 (by simp) n1 a1 rfl n0 (by simp) p ⟨j.val - n0, by omega⟩ j (by show n0 + (j.val - n0) = j.val; omega),
        cols_piece [⟨⟨2, ![M, n0]⟩, A0⟩, ⟨⟨2, ![M, n1]⟩, A1⟩, ⟨⟨2, ![M, n2]⟩, A2⟩, ⟨⟨2, ![M, n3]⟩, A3⟩] H 1 (by simp) n1 A1 rfl n0 (by simp) (e p) ⟨j.val - n0, by omega⟩ j (by show n0 + (j.val - n0) = j.val; omega), h1]
    · by_cases c2 : j.val < n0 + n1 + n2
      · rw [cols_piece [⟨⟨2, ![m, n0]⟩, a0⟩, ⟨⟨2, ![m, n1]⟩, a1⟩, ⟨⟨2, ![m, n2]⟩, a2⟩, ⟨⟨2, ![m, n3]⟩, a3⟩] h 2 (by simp) n2 a2 rfl (n0 + n1) (by simp) p ⟨j.val - (n0 + n1), by omega⟩ j (by show n0 + n1 + (j.val - (n0 + n1)) = j.val; omega),
          cols_piece [⟨⟨2, ![M, n0]⟩, A0⟩, ⟨⟨2, ![M, n1]⟩, A1⟩, ⟨⟨2, ![M, n2]⟩, A2⟩, ⟨⟨2, ![M, n3]⟩, A3⟩] H 2 (by simp) n2 A2 rfl (n0 + n1) (by simp) (e p) ⟨j.val - (n0 + n1), by omega⟩ j (by show n0 + n1 + (j.val - (n0 + n1)) = j.val; omega), h2]
      · rw [cols_piece [⟨⟨2, ![m, n0]⟩, a0⟩, ⟨⟨2, ![m, n1]⟩, a1⟩, ⟨⟨2, ![m, n2]⟩, a2⟩, ⟨⟨2, ![m, n3]⟩, a3⟩] h 3 (by simp) n3 a3 rfl (n0 + n1 + n2) (by simp [Nat.add_assoc]) p ⟨j.val - (n0 + n1 + n2), by omega⟩ j (by show n0 + n1 + n2 + (j.val - (n0 + n1 + n2)) = j.val; omega),
          cols_piece [⟨⟨2, ![M, n0]⟩, A0⟩, ⟨⟨2, ![M, n1]⟩, A1⟩, ⟨⟨2, ![M, n2]⟩, A2⟩, ⟨⟨2, ![M, n3]⟩, A3⟩] H 3 (by simp) n3 A3 rfl (n0 + n1 + n2) (by simp [Nat.add_assoc]) (e p) ⟨j.val - (n0 + n1 + n2), by omega⟩ j (by show n0 + n1 + n2 + (j.val - (n0 + n1 + n2)) = j.val; omega), h3]

/-- The same for three arrays side by side. -/
theorem cols3_rows {m M n0 n1 n2 N : ℕ}
    (A0 : (⟨2, ![M, n0]⟩ : Shape).Idx → α) (A1 : (⟨2, ![M, n1]⟩ : Shape).Idx → α) (A2 : (⟨2, ![M, n2]⟩ : Shape).Idx → α)
    (a0 : (⟨2, ![m, n0]⟩ : Shape).Idx → α) (a1 : (⟨2, ![m, n1]⟩ : Shape).Idx → α) (a2 : (⟨2, ![m, n2]⟩ : Shape).Idx → α)
    (H : Shape.Concatenates [(⟨2, ![M, n0]⟩ : Shape), ⟨2, ![M, n1]⟩, ⟨2, ![M, n2]⟩] ⟨2, ![M, N]⟩ (1 : Fin 2))
    (h : Shape.Concatenates [(⟨2, ![m, n0]⟩ : Shape), ⟨2, ![m, n1]⟩, ⟨2, ![m, n2]⟩] ⟨2, ![m, N]⟩ (1 : Fin 2))
    (e : Fin m → Fin M)
    (h0 : ∀ (p : Fin m) (q : Fin n0), a0 (ix2 p q) = A0 (ix2 (e p) q))
    (h1 : ∀ (p : Fin m) (q : Fin n1), a1 (ix2 p q) = A1 (ix2 (e p) q))
    (h2 : ∀ (p : Fin m) (q : Fin n2), a2 (ix2 p q) = A2 (ix2 (e p) q))
    (p : Fin m) (j : Fin N) :
    concatenate ⟨2, ![m, N]⟩ (1 : Fin 2) [⟨⟨2, ![m, n0]⟩, a0⟩, ⟨⟨2, ![m, n1]⟩, a1⟩, ⟨⟨2, ![m, n2]⟩, a2⟩] h (ix2 p j)
      = concatenate ⟨2, ![M, N]⟩ (1 : Fin 2) [⟨⟨2, ![M, n0]⟩, A0⟩, ⟨⟨2, ![M, n1]⟩, A1⟩, ⟨⟨2, ![M, n2]⟩, A2⟩] H (ix2 (e p) j) := by
  have hN : n0 + (n1 + (n2 + 0)) = N := h.2.2
  have hj := j.isLt
  by_cases c0 : j.val < n0
  · rw [cols_piece [⟨⟨2, ![m, n0]⟩, a0⟩, ⟨⟨2, ![m, n1]⟩, a1⟩, ⟨⟨2, ![m, n2]⟩, a2⟩] h 0 (by simp) n0 a0 rfl 0 (by simp) p ⟨j.val, c0⟩ j (by simp),
      cols_piece [⟨⟨2, ![M, n0]⟩, A0⟩, ⟨⟨2, ![M, n1]⟩, A1⟩, ⟨⟨2, ![M, n2]⟩, A2⟩] H 0 (by simp) n0 A0 rfl 0 (by simp) (e p) ⟨j.val, c0⟩ j (by simp), h0]
  · by_cases c1 : j.val < n0 + n1
    · rw [cols_piece [⟨⟨2, ![m, n0]⟩, a0⟩, ⟨⟨2, ![m, n1]⟩, a1⟩, ⟨⟨2, ![m, n2]⟩, a2⟩] h 1 (by simp) n1 a1 rfl n0 (by simp) p ⟨j.val - n0, by omega⟩ j (by show n0 + (j.val - n0) = j.val; omega),
        cols_piece [⟨⟨2, ![M, n0]⟩, A0⟩, ⟨⟨2, ![M, n1]⟩, A1⟩, ⟨⟨2, ![M, n2]⟩, A2⟩] H 1 (by simp) n1 A1 rfl n0 (by simp) (e p) ⟨j.val - n0, by omega⟩ j (by show n0 + (j.val - n0) = j.val; omega), h1]
    · rw [cols_piece [⟨⟨2, ![m, n0]⟩, a0⟩, ⟨⟨2, ![m, n1]⟩, a1⟩, ⟨⟨2, ![m, n2]⟩, a2⟩] h 2 (by simp) n2 a2 rfl (n0 + n1) (by simp) p ⟨j.val - (n0 + n1), by omega⟩ j (by show n0 + n1 + (j.val - (n0 + n1)) = j.val; omega),
        cols_piece [⟨⟨2, ![M, n0]⟩, A0⟩, ⟨⟨2, ![M, n1]⟩, A1⟩, ⟨⟨2, ![M, n2]⟩, A2⟩] H 2 (by simp) n2 A2 rfl (n0 + n1) (by simp) (e p) ⟨j.val - (n0 + n1), by omega⟩ j (by show n0 + n1 + (j.val - (n0 + n1)) = j.val; omega), h2]

end Cert.LibColumnPieces
-- ==== Proof.EdgeRegion.lean ====
/-
  The edge region's output array, as one function of the arrays the region finds.

  The region has 400 grid points. At point t every row-blocked window holds rows 4000 t … 4000 t + 3999 of its
  array, the weights and the bias are held whole, and the body writes back rows 4000 t … 4000 t + 3999 of the
  output: the clamped dense layer of the four input blocks joined side by side. Row p of that layer depends on
  row p of the joined block only, and row p of a join is made of row p of each piece, so the block written back is
  rows 4000 t … of the clamped dense layer of the four whole arrays joined side by side. The 400 blocks tile the
  output, so the output array ends as that whole-array function.
-/
import proofs.«113929_j70153995813296_2_alg».proof.Proof.Gen.KernelIdeal.Frame
import proofs.«113929_j70153995813296_2_alg».proof.Proof.Bodies
import proofs.«113929_j70153995813296_2_alg».proof.Proof.LibColumnPieces
import Idealize.ShloMosaic.Lib.Pipeline.Value
import Idealize.ShloMosaic.Lib.ValueIdx

set_option maxRecDepth 16384

noncomputable section

namespace Cert.KernelIdeal.EdgeRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.ReluRows

/-- The four gathered arrays joined side by side have 128 columns. -/
abbrev S1600000x128 : Shape := ⟨2, ![1600000, 128]⟩

theorem joins : Shape.Concatenates [S1600000x32, S1600000x32, S1600000x32, S1600000x32] S1600000x128 1 := by decide

/-- The messages: the clamped dense layer of four [1600000, 32] arrays joined side by side. -/
def messages (A0 A1 A2 A3 : S1600000x32.Idx → EReal) (W : S128x64.Idx → EReal) (B : S64.Idx → EReal) :
    S1600000x64.Idx → EReal :=
  reluRows (concatenate S1600000x128 1 [⟨S1600000x32, A0⟩, ⟨S1600000x32, A1⟩, ⟨S1600000x32, A2⟩, ⟨S1600000x32, A3⟩] joins)
    W (shapeCast S1x64 B shapeCasts_S64_S1x64)

/-- One point's stored value at an entry: where the four loaded blocks hold, row for row, the rows e p of four
    arrays, and the loaded weights and bias are W and B, the entry (p, q) stored is the messages' entry (e p, q). -/
theorem point_entry (A0 A1 A2 A3 : S1600000x32.Idx → EReal) (W : S128x64.Idx → EReal) (B : S64.Idx → EReal)
    (x0 x1 x2 x3 : Vec Ideal S4000x32 .f32) (w : Vec Ideal S128x64 .f32) (b : Vec Ideal S64 .f32)
    (e : Fin 4000 → Fin 1600000)
    (h0 : ∀ (p : Fin 4000) (q : Fin 32), x0 (ix2 p q) = A0 (ix2 (e p) q))
    (h1 : ∀ (p : Fin 4000) (q : Fin 32), x1 (ix2 p q) = A1 (ix2 (e p) q))
    (h2 : ∀ (p : Fin 4000) (q : Fin 32), x2 (ix2 p q) = A2 (ix2 (e p) q))
    (h3 : ∀ (p : Fin 4000) (q : Fin 32), x3 (ix2 p q) = A3 (ix2 (e p) q))
    (hw : w = W) (hb : b = B) (p : Fin 4000) (q : Fin 64) :
    k0_pay1 (F := Ideal) x0 x1 x2 x3 w b (ix2 p q) = messages A0 A1 A2 A3 W B (ix2 (e p) q) := by
  subst hw hb
  rw [Bodies.edge_payload]
  exact reluRows_rows _ w _ e _
    (fun p c => Cert.LibColumnPieces.cols4_rows A0 A1 A2 A3 x0 x1 x2 x3 joins
      concatenates_S4000x32_S4000x32_S4000x32_S4000x32_S4000x128_d1 e h0 h1 h2 h3 p c) p q

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows are at block row t, the weights and the bias at
    block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The row of the arrays that row p of point t's blocks holds. -/
def rowAt (t : Fin cfg0.N) (p : Fin 4000) : Fin 1600000 :=
  ⟨t.val * 4000 + p.val, by have ht : t.val < 400 := t.isLt; have hp := p.isLt; omega⟩

section
variable (V : (c : Dev nD) → (b : Ref sig .tc) → Buf (Elt Ideal) ((c : Thread nD τ).loc b))

/-- What point t writes back is block t of the messages of the arrays as the region finds them. -/
theorem flushed_eq (c : Dev nD) (t : Fin cfg0.N) :
    (dat0 V c).flushed 6 t = ((cfg0.win 6).blk t).view.read (Elt Ideal)
      (messages (V c main_v24) (V c main_v31) (V c main_arg2) (V c main_v17) (V c main_arg5) (V c main_arg6)) := by
  show (cfg0.win 6).cut (grid0.coords t) ((dat0 V c).after 6 t) = _
  rw [after0_6]
  unfold out0_6
  rw [View.canon_unit_zero hz2]
  simp only [View.ld_unit_zero (S := S4000x32) hz2, View.ld_unit_zero (S := S128x64) hz2, View.ld_unit_zero (S := S64) hz1]
  obtain ⟨e00, e01, e10, e11, e20, e21, e30, e31, e40, e41, e50, e60, e61⟩ := idx_facts t
  funext y
  obtain ⟨p, q, rfl⟩ : ∃ (p : Fin 4000) (q : Fin 64), y = ix2 p q := ⟨y 0, y 1, eq_ix2 y⟩
  have hout : ((cfg0.win 6).blk t).view.emb (ix2 p q) = ix2 (rowAt t p) q := by
    funext a; apply Fin.ext
    match a with
    | ⟨0, _⟩ => show win0_6.index t (0 : Fin 2) * 4000 + 1 * p.val = t.val * 4000 + p.val; omega
    | ⟨1, _⟩ => show win0_6.index t (1 : Fin 2) * 64 + 1 * q.val = q.val; omega
  show k0_pay1 (F := Ideal) (iblk0 V c 0 t) (iblk0 V c 1 t) (iblk0 V c 2 t) (iblk0 V c 3 t) (iblk0 V c 4 t) (iblk0 V c 5 t) (ix2 p q)
    = messages (V c main_v24) (V c main_v31) (V c main_arg2) (V c main_v17) (V c main_arg5) (V c main_arg6)
        (((cfg0.win 6).blk t).view.emb (ix2 p q))
  rw [hout]
  refine point_entry (V c main_v24) (V c main_v31) (V c main_arg2) (V c main_v17) (V c main_arg5) (V c main_arg6)
    (iblk0 V c 0 t) (iblk0 V c 1 t) (iblk0 V c 2 t) (iblk0 V c 3 t) (iblk0 V c 4 t) (iblk0 V c 5 t) (rowAt t) ?_ ?_ ?_ ?_ ?_ ?_ p q
  · intro p q
    show V c main_v24 (((cfg0.win 0).blk t).view.emb (ix2 p q)) = V c main_v24 (ix2 (rowAt t p) q)
    refine congrArg (V c main_v24) (funext fun a => Fin.ext ?_)
    match a with
    | ⟨0, _⟩ => show win0_0.index t (0 : Fin 2) * 4000 + 1 * p.val = t.val * 4000 + p.val; omega
    | ⟨1, _⟩ => show win0_0.index t (1 : Fin 2) * 32 + 1 * q.val = q.val; omega
  · intro p q
    show V c main_v31 (((cfg0.win 1).blk t).view.emb (ix2 p q)) = V c main_v31 (ix2 (rowAt t p) q)
    refine congrArg (V c main_v31) (funext fun a => Fin.ext ?_)
    match a with
    | ⟨0, _⟩ => show win0_1.index t (0 : Fin 2) * 4000 + 1 * p.val = t.val * 4000 + p.val; omega
    | ⟨1, _⟩ => show win0_1.index t (1 : Fin 2) * 32 + 1 * q.val = q.val; omega
  · intro p q
    show V c main_arg2 (((cfg0.win 2).blk t).view.emb (ix2 p q)) = V c main_arg2 (ix2 (rowAt t p) q)
    refine congrArg (V c main_arg2) (funext fun a => Fin.ext ?_)
    match a with
    | ⟨0, _⟩ => show win0_2.index t (0 : Fin 2) * 4000 + 1 * p.val = t.val * 4000 + p.val; omega
    | ⟨1, _⟩ => show win0_2.index t (1 : Fin 2) * 32 + 1 * q.val = q.val; omega
  · intro p q
    show V c main_v17 (((cfg0.win 3).blk t).view.emb (ix2 p q)) = V c main_v17 (ix2 (rowAt t p) q)
    refine congrArg (V c main_v17) (funext fun a => Fin.ext ?_)
    match a with
    | ⟨0, _⟩ => show win0_3.index t (0 : Fin 2) * 4000 + 1 * p.val = t.val * 4000 + p.val; omega
    | ⟨1, _⟩ => show win0_3.index t (1 : Fin 2) * 32 + 1 * q.val = q.val; omega
  · funext y
    show V c main_arg5 (((cfg0.win 4).blk t).view.emb y) = V c main_arg5 y
    refine congrArg (V c main_arg5) (funext fun a => Fin.ext ?_)
    match a with
    | ⟨0, _⟩ => show win0_4.index t (0 : Fin 2) * 128 + 1 * (y 0).val = (y 0).val; omega
    | ⟨1, _⟩ => show win0_4.index t (1 : Fin 2) * 64 + 1 * (y 1).val = (y 1).val; omega
  · funext y
    show V c main_arg6 (((cfg0.win 5).blk t).view.emb y) = V c main_arg6 y
    refine congrArg (V c main_arg6) (funext fun a => Fin.ext ?_)
    match a with
    | ⟨0, _⟩ => show win0_5.index t (0 : Fin 1) * 64 + 1 * (y 0).val = (y 0).val; omega

/-- An index of the output array is in point t's block iff each coordinate is in the block's range on its axis. -/
theorem mem_blk (t : Fin cfg0.N) (i : S1600000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v32).slice (win0_6.rect t)).set ↔ _
  rw [View.set_slice_whole, Rect.mem_set_unit]
  exact Iff.rfl

/-- Every row of the output is in the block of the point whose number is the row's quotient by 4000. -/
theorem cover (i : S1600000x64.Idx) :
    ∃ t : Fin cfg0.N, (cfg0.win 6).flush t = true ∧ i ∈ ((cfg0.win 6).blk t).view.set := by
  have hi0 : (i 0).val < 1600000 := (i 0).isLt
  have hi1 : (i 1).val < 64 := (i 1).isLt
  refine ⟨⟨(i 0).val / 4000, by show (i 0).val / 4000 < 400; omega⟩, flush0_6 _, ?_⟩
  rw [mem_blk]
  obtain ⟨-, -, -, -, -, -, -, -, -, -, -, e60, e61⟩ := idx_facts ⟨(i 0).val / 4000, by show (i 0).val / 4000 < 400; omega⟩
  intro a
  match a with
  | ⟨0, _⟩ =>
    show win0_6.index ⟨(i 0).val / 4000, _⟩ (0 : Fin 2) * 4000 ≤ (i 0).val ∧ (i 0).val < win0_6.index ⟨(i 0).val / 4000, _⟩ (0 : Fin 2) * 4000 + 4000
    rw [e60]; show (i 0).val / 4000 * 4000 ≤ (i 0).val ∧ (i 0).val < (i 0).val / 4000 * 4000 + 4000; omega
  | ⟨1, _⟩ =>
    show win0_6.index ⟨(i 0).val / 4000, _⟩ (1 : Fin 2) * 64 ≤ (i 1).val ∧ (i 1).val < win0_6.index ⟨(i 0).val / 4000, _⟩ (1 : Fin 2) * 64 + 64
    rw [e61]; omega

/-- The output array after the region: the messages of the arrays as the region finds them. -/
theorem final (c : Dev nD) :
    (dat0 V c).arrAt 6 cfg0.N
      = messages (V c main_v24) (V c main_v31) (V c main_arg2) (V c main_v17) (V c main_arg5) (V c main_arg6) :=
  (dat0 V c).arrAt_eq_of_cover 6 _ (fun t _ => flushed_eq V c t) cover

end

end Cert.KernelIdeal.EdgeRegion

end
-- ==== Proof.NodeRegion.lean ====
/-
  The node region's output array, as one function of the arrays the region finds.

  The region has 25 grid points. At point t the three row-blocked windows (node features, 32 wide; summed
  messages, 64 wide; per-node graph features, 32 wide) hold rows 4000 t … 4000 t + 3999 of their arrays, the
  weights and the bias are held whole, and the body writes back rows 4000 t … of the output: the clamped dense
  layer of the three blocks joined side by side, which is rows 4000 t … of the clamped dense layer of the three
  whole arrays joined side by side. The 25 blocks tile the output.
-/
import proofs.«113929_j70153995813296_2_alg».proof.Proof.Gen.KernelIdeal.Frame
import proofs.«113929_j70153995813296_2_alg».proof.Proof.Bodies
import proofs.«113929_j70153995813296_2_alg».proof.Proof.LibColumnPieces
import Idealize.ShloMosaic.Lib.Pipeline.Value
import Idealize.ShloMosaic.Lib.ValueIdx

set_option maxRecDepth 16384

noncomputable section

namespace Cert.KernelIdeal.NodeRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.ReluRows

/-- The three per-node arrays joined side by side have 128 columns. -/
abbrev S100000x128 : Shape := ⟨2, ![100000, 128]⟩

theorem joins : Shape.Concatenates [S100000x32, S100000x64, S100000x32] S100000x128 1 := by decide

/-- The node update: the clamped dense layer of a [100000, 32], a [100000, 64] and a [100000, 32] array joined
    side by side. -/
def update (A0 : S100000x32.Idx → EReal) (A1 : S100000x64.Idx → EReal) (A2 : S100000x32.Idx → EReal)
    (W : S128x64.Idx → EReal) (B : S64.Idx → EReal) : S100000x64.Idx → EReal :=
  reluRows (concatenate S100000x128 1 [⟨S100000x32, A0⟩, ⟨S100000x64, A1⟩, ⟨S100000x32, A2⟩] joins)
    W (shapeCast S1x64 B shapeCasts_S64_S1x64)

/-- One point's stored value at an entry: where the three loaded blocks hold, row for row, the rows e p of three
    arrays, and the loaded weights and bias are W and B, the entry (p, q) stored is the update's entry (e p, q). -/
theorem point_entry (A0 : S100000x32.Idx → EReal) (A1 : S100000x64.Idx → EReal) (A2 : S100000x32.Idx → EReal)
    (W : S128x64.Idx → EReal) (B : S64.Idx → EReal)
    (x0 : Vec Ideal S4000x32 .f32) (x1 : Vec Ideal S4000x64 .f32) (x2 : Vec Ideal S4000x32 .f32)
    (w : Vec Ideal S128x64 .f32) (b : Vec Ideal S64 .f32)
    (e : Fin 4000 → Fin 100000)
    (h0 : ∀ (p : Fin 4000) (q : Fin 32), x0 (ix2 p q) = A0 (ix2 (e p) q))
    (h1 : ∀ (p : Fin 4000) (q : Fin 64), x1 (ix2 p q) = A1 (ix2 (e p) q))
    (h2 : ∀ (p : Fin 4000) (q : Fin 32), x2 (ix2 p q) = A2 (ix2 (e p) q))
    (hw : w = W) (hb : b = B) (p : Fin 4000) (q : Fin 64) :
    k1_pay1 (F := Ideal) x0 x1 x2 w b (ix2 p q) = update A0 A1 A2 W B (ix2 (e p) q) := by
  subst hw hb
  rw [Bodies.node_payload]
  exact reluRows_rows _ w _ e _
    (fun p c => Cert.LibColumnPieces.cols3_rows A0 A1 A2 x0 x1 x2 joins
      concatenates_S4000x32_S4000x64_S4000x32_S4000x128_d1 e h0 h1 h2 p c) p q

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows are at block row t, the weights and the bias at
    block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The row of the arrays that row p of point t's blocks holds. -/
def rowAt (t : Fin cfg1.N) (p : Fin 4000) : Fin 100000 :=
  ⟨t.val * 4000 + p.val, by have ht : t.val < 25 := t.isLt; have hp := p.isLt; omega⟩

section
variable (V : (c : Dev nD) → (b : Ref sig .tc) → Buf (Elt Ideal) ((c : Thread nD τ).loc b))

/-- What point t writes back is block t of the update of the arrays as the region finds them. -/
theorem flushed_eq (c : Dev nD) (t : Fin cfg1.N) :
    (dat1 V c).flushed 5 t = ((cfg1.win 5).blk t).view.read (Elt Ideal)
      (update (V c main_arg0) (V c main_v35) (V c main_v10) (V c main_arg7) (V c main_arg8)) := by
  show (cfg1.win 5).cut (grid1.coords t) ((dat1 V c).after 5 t) = _
  rw [after1_5]
  unfold out1_5
  rw [View.canon_unit_zero hz2]
  simp only [View.ld_unit_zero (S := S4000x32) hz2, View.ld_unit_zero (S := S4000x64) hz2, View.ld_unit_zero (S := S128x64) hz2, View.ld_unit_zero (S := S64) hz1]
  obtain ⟨e00, e01, e10, e11, e20, e21, e30, e31, e40, e50, e51⟩ := idx_facts t
  funext y
  obtain ⟨p, q, rfl⟩ : ∃ (p : Fin 4000) (q : Fin 64), y = ix2 p q := ⟨y 0, y 1, eq_ix2 y⟩
  have hout : ((cfg1.win 5).blk t).view.emb (ix2 p q) = ix2 (rowAt t p) q := by
    funext a; apply Fin.ext
    match a with
    | ⟨0, _⟩ => show win1_5.index t (0 : Fin 2) * 4000 + 1 * p.val = t.val * 4000 + p.val; omega
    | ⟨1, _⟩ => show win1_5.index t (1 : Fin 2) * 64 + 1 * q.val = q.val; omega
  show k1_pay1 (F := Ideal) (iblk1 V c 0 t) (iblk1 V c 1 t) (iblk1 V c 2 t) (iblk1 V c 3 t) (iblk1 V c 4 t) (ix2 p q)
    = update (V c main_arg0) (V c main_v35) (V c main_v10) (V c main_arg7) (V c main_arg8)
        (((cfg1.win 5).blk t).view.emb (ix2 p q))
  rw [hout]
  refine point_entry (V c main_arg0) (V c main_v35) (V c main_v10) (V c main_arg7) (V c main_arg8)
    (iblk1 V c 0 t) (iblk1 V c 1 t) (iblk1 V c 2 t) (iblk1 V c 3 t) (iblk1 V c 4 t) (rowAt t) ?_ ?_ ?_ ?_ ?_ p q
  · intro p q
    show V c main_arg0 (((cfg1.win 0).blk t).view.emb (ix2 p q)) = V c main_arg0 (ix2 (rowAt t p) q)
    refine congrArg (V c main_arg0) (funext fun a => Fin.ext ?_)
    match a with
    | ⟨0, _⟩ => show win1_0.index t (0 : Fin 2) * 4000 + 1 * p.val = t.val * 4000 + p.val; omega
    | ⟨1, _⟩ => show win1_0.index t (1 : Fin 2) * 32 + 1 * q.val = q.val; omega
  · intro p q
    show V c main_v35 (((cfg1.win 1).blk t).view.emb (ix2 p q)) = V c main_v35 (ix2 (rowAt t p) q)
    refine congrArg (V c main_v35) (funext fun a => Fin.ext ?_)
    match a with
    | ⟨0, _⟩ => show win1_1.index t (0 : Fin 2) * 4000 + 1 * p.val = t.val * 4000 + p.val; omega
    | ⟨1, _⟩ => show win1_1.index t (1 : Fin 2) * 64 + 1 * q.val = q.val; omega
  · intro p q
    show V c main_v10 (((cfg1.win 2).blk t).view.emb (ix2 p q)) = V c main_v10 (ix2 (rowAt t p) q)
    refine congrArg (V c main_v10) (funext fun a => Fin.ext ?_)
    match a with
    | ⟨0, _⟩ => show win1_2.index t (0 : Fin 2) * 4000 + 1 * p.val = t.val * 4000 + p.val; omega
    | ⟨1, _⟩ => show win1_2.index t (1 : Fin 2) * 32 + 1 * q.val = q.val; omega
  · funext y
    show V c main_arg7 (((cfg1.win 3).blk t).view.emb y) = V c main_arg7 y
    refine congrArg (V c main_arg7) (funext fun a => Fin.ext ?_)
    match a with
    | ⟨0, _⟩ => show win1_3.index t (0 : Fin 2) * 128 + 1 * (y 0).val = (y 0).val; omega
    | ⟨1, _⟩ => show win1_3.index t (1 : Fin 2) * 64 + 1 * (y 1).val = (y 1).val; omega
  · funext y
    show V c main_arg8 (((cfg1.win 4).blk t).view.emb y) = V c main_arg8 y
    refine congrArg (V c main_arg8) (funext fun a => Fin.ext ?_)
    match a with
    | ⟨0, _⟩ => show win1_4.index t (0 : Fin 1) * 64 + 1 * (y 0).val = (y 0).val; omega

/-- An index of the output array is in point t's block iff each coordinate is in the block's range on its axis. -/
theorem mem_blk (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v36).slice (win1_5.rect t)).set ↔ _
  rw [View.set_slice_whole, Rect.mem_set_unit]
  exact Iff.rfl

/-- Every row of the output is in the block of the point whose number is the row's quotient by 4000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  refine ⟨⟨(i 0).val / 4000, by show (i 0).val / 4000 < 25; omega⟩, flush1_5 _, ?_⟩
  rw [mem_blk]
  obtain ⟨-, -, -, -, -, -, -, -, -, e50, e51⟩ := idx_facts ⟨(i 0).val / 4000, by show (i 0).val / 4000 < 25; omega⟩
  intro a
  match a with
  | ⟨0, _⟩ =>
    show win1_5.index ⟨(i 0).val / 4000, _⟩ (0 : Fin 2) * 4000 ≤ (i 0).val ∧ (i 0).val < win1_5.index ⟨(i 0).val / 4000, _⟩ (0 : Fin 2) * 4000 + 4000
    rw [e50]; show (i 0).val / 4000 * 4000 ≤ (i 0).val ∧ (i 0).val < (i 0).val / 4000 * 4000 + 4000; omega
  | ⟨1, _⟩ =>
    show win1_5.index ⟨(i 0).val / 4000, _⟩ (1 : Fin 2) * 64 ≤ (i 1).val ∧ (i 1).val < win1_5.index ⟨(i 0).val / 4000, _⟩ (1 : Fin 2) * 64 + 64
    rw [e51]; omega

/-- The output array after the region: the update of the arrays as the region finds them. -/
theorem final (c : Dev nD) :
    (dat1 V c).arrAt 5 cfg1.N
      = update (V c main_arg0) (V c main_v35) (V c main_v10) (V c main_arg7) (V c main_arg8) :=
  (dat1 V c).arrAt_eq_of_cover 5 _ (fun t _ => flushed_eq V c t) cover

end

end Cert.KernelIdeal.NodeRegion

end
-- ==== Proof.HostParts.lean ====
/-
  The host operations around the dense layers, named once.

  From the [2, 1600000] edge list: its row 0 (each edge's source node) and row 1 (each edge's destination node).
  A list of node numbers becomes a column of row numbers, a negative number counted from the end (100000 added).
  rowsAt gathers, for each edge, the row of a [100000, 32] array at that column's entry; graphRows gathers, for
  each node, the row of the [64, 32] graph features at the node's graph number (a negative one counted from the
  end, 64 added); segmentSum adds each edge's [64] message into the row of its destination node, from zero.
-/
import proofs.«113929_j70153995813296_2_alg».proof.Proof.Gen.KernelIdeal

noncomputable section

namespace Cert.KernelIdeal.HostParts

open Idealize.ShloMosaic Cert.KernelIdeal Cert.KernelIdeal.Gen

variable {F : FTy → Type} [FloatOps F]

/-- Row 0 of the edge list: each edge's source node. -/
def srcIdx (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Row 1 of the edge list: each edge's destination node. -/
def dstIdx (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- Node numbers as a column of row numbers, a negative number counted from the end. -/
def nodeColumn (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- For each edge, the row of a per-node array at the edge's node. -/
def rowsAt (x : (⟨S100000x32, .f32⟩ : BufTy).Contents (Elt F)) (v : (⟨S1600000, .i32⟩ : BufTy).Contents (Elt F)) :
    (⟨S1600000x32, .f32⟩ : BufTy).Contents (Elt F) :=
  Host.gather gather_S100000x32_S1600000x1_S1600000x32_1_0_n_n_0_1_132 x (nodeColumn v)

/-- For each node, the row of the per-graph features at the node's graph. -/
def graphRows (u : (⟨S64x32, .f32⟩ : BufTy).Contents (Elt F)) (b : (⟨S100000, .i32⟩ : BufTy).Contents (Elt F)) :
    (⟨S100000x32, .f32⟩ : BufTy).Contents (Elt F) :=
  Host.gather gather_S64x32_S100000x1_S100000x32_1_0_n_n_0_1_132 u
    (broadcastInDim S100000x1 ![0] bcast_S100000_S100000x1_0
      (select (cmpi .slt b (broadcastInDim S100000 ![] bcast_S_S100000 (constantI S_ 32 0#32)))
        (addi b (broadcastInDim S100000 ![] bcast_S_S100000 (constantI S_ 32 64#32))) b))

/-- Each edge's message added into the row of its destination node, from zero. -/
def segmentSum (d : (⟨S1600000, .i32⟩ : BufTy).Contents (Elt F)) (msg : (⟨S1600000x64, .f32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d) msg

end Cert.KernelIdeal.HostParts

end
-- ==== Proof.PreDest.lean ====
/-
  The first host stretch read at the destination rows: after it, the buffer of x[dest] holds, for each edge, the
  row of the node features at the edge's destination node.
-/
import proofs.«113929_j70153995813296_2_alg».proof.Proof.Gen.KernelIdeal.Launch
import proofs.«113929_j70153995813296_2_alg».proof.Proof.HostParts
import Idealize.ShloMosaic.Lib.StableHlo.Run
import Idealize.ShloMosaic.PureOps.Ideal

noncomputable section

namespace Cert.KernelIdeal.PreDest

open Idealize.ShloMosaic Idealize.ShloMosaic.TcCoe Idealize.SL.Sem Idealize.ShloMosaic.StableHlo Cert.KernelIdeal Cert.KernelIdeal.Gen Cert.KernelIdeal.HostParts

set_option maxHeartbeats 4000000 in
/-- After the first stretch the destination-row buffer is the node features gathered at the edges' destination nodes. -/
theorem dest_rows (W : Valuation τ sig (Elt Ideal)) :
    StableHlo.after (hostOps0 (F := Ideal)) W (Proc.devRef .tc main_v24) = rowsAt (W (Proc.devRef .tc main_arg0)) (dstIdx (W (Proc.devRef .tc main_arg1))) := by
  after_results <;> rfl

end Cert.KernelIdeal.PreDest

end
-- ==== Proof.PreSrc.lean ====
/-
  The first host stretch read at the source rows: after it, the buffer of x[src] holds, for each edge, the row of
  the node features at the edge's source node.
-/
import proofs.«113929_j70153995813296_2_alg».proof.Proof.Gen.KernelIdeal.Launch
import proofs.«113929_j70153995813296_2_alg».proof.Proof.HostParts
import Idealize.ShloMosaic.Lib.StableHlo.Run
import Idealize.ShloMosaic.PureOps.Ideal

noncomputable section

namespace Cert.KernelIdeal.PreSrc

open Idealize.ShloMosaic Idealize.ShloMosaic.TcCoe Idealize.SL.Sem Idealize.ShloMosaic.StableHlo Cert.KernelIdeal Cert.KernelIdeal.Gen Cert.KernelIdeal.HostParts

set_option maxHeartbeats 4000000 in
/-- After the first stretch the source-row buffer is the node features gathered at the edges' source nodes. -/
theorem src_rows (W : Valuation τ sig (Elt Ideal)) :
    StableHlo.after (hostOps0 (F := Ideal)) W (Proc.devRef .tc main_v31) = rowsAt (W (Proc.devRef .tc main_arg0)) (srcIdx (W (Proc.devRef .tc main_arg1))) := by
  after_results <;> rfl

end Cert.KernelIdeal.PreSrc

end
-- ==== Proof.PreGraph.lean ====
/-
  The first host stretch read at the per-edge graph features: after it, the buffer of u[batch][src] holds, for
  each edge, the graph features of the graph of the edge's source node.
-/
import proofs.«113929_j70153995813296_2_alg».proof.Proof.Gen.KernelIdeal.Launch
import proofs.«113929_j70153995813296_2_alg».proof.Proof.HostParts
import Idealize.ShloMosaic.Lib.StableHlo.Run
import Idealize.ShloMosaic.PureOps.Ideal

noncomputable section

namespace Cert.KernelIdeal.PreGraph

open Idealize.ShloMosaic Idealize.ShloMosaic.TcCoe Idealize.SL.Sem Idealize.ShloMosaic.StableHlo Cert.KernelIdeal Cert.KernelIdeal.Gen Cert.KernelIdeal.HostParts

set_option maxHeartbeats 4000000 in
/-- After the first stretch the per-edge graph-feature buffer is the per-node graph features gathered at the edges' source nodes. -/
theorem graph_rows_of_src (W : Valuation τ sig (Elt Ideal)) :
    StableHlo.after (hostOps0 (F := Ideal)) W (Proc.devRef .tc main_v17) = rowsAt (graphRows (W (Proc.devRef .tc main_arg3)) (W (Proc.devRef .tc main_arg4))) (srcIdx (W (Proc.devRef .tc main_arg1))) := by
  after_results <;> rfl

end Cert.KernelIdeal.PreGraph

end
-- ==== Proof.PreRest.lean ====
/-
  The first host stretch read at the buffers the later segments still need: the per-node graph features, the
  edges' destination nodes, and the arguments, which no host operation writes.
-/
import proofs.«113929_j70153995813296_2_alg».proof.Proof.Gen.KernelIdeal.Launch
import proofs.«113929_j70153995813296_2_alg».proof.Proof.HostParts
import Idealize.ShloMosaic.Lib.StableHlo.Run
import Idealize.ShloMosaic.PureOps.Ideal

noncomputable section

namespace Cert.KernelIdeal.PreRest

open Idealize.ShloMosaic Idealize.ShloMosaic.TcCoe Idealize.SL.Sem Idealize.ShloMosaic.StableHlo Cert.KernelIdeal Cert.KernelIdeal.Gen Cert.KernelIdeal.HostParts

set_option maxHeartbeats 4000000 in
/-- After the first stretch the per-node graph-feature buffer is the graph features gathered at the nodes' graphs. -/
theorem graph_rows (W : Valuation τ sig (Elt Ideal)) :
    StableHlo.after (hostOps0 (F := Ideal)) W (Proc.devRef .tc main_v10) = graphRows (W (Proc.devRef .tc main_arg3)) (W (Proc.devRef .tc main_arg4)) := by
  after_results <;> rfl

set_option maxHeartbeats 4000000 in
/-- After the first stretch the buffer of destination nodes is row 1 of the edge list. -/
theorem dest_nodes (W : Valuation τ sig (Elt Ideal)) :
    StableHlo.after (hostOps0 (F := Ideal)) W (Proc.devRef .tc main_v3) = dstIdx (W (Proc.devRef .tc main_arg1)) := by
  after_results <;> rfl

set_option maxHeartbeats 4000000 in
/-- The first stretch writes no argument: argument 0's buffer is as it was. -/
theorem keeps_arg0 (W : Valuation τ sig (Elt Ideal)) :
    StableHlo.after (hostOps0 (F := Ideal)) W (Proc.devRef .tc main_arg0) = W (Proc.devRef .tc main_arg0) := by
  after_results <;> rfl

set_option maxHeartbeats 4000000 in
/-- The first stretch writes no argument: argument 2's buffer is as it was. -/
theorem keeps_arg2 (W : Valuation τ sig (Elt Ideal)) :
    StableHlo.after (hostOps0 (F := Ideal)) W (Proc.devRef .tc main_arg2) = W (Proc.devRef .tc main_arg2) := by
  after_results <;> rfl

set_option maxHeartbeats 4000000 in
/-- The first stretch writes no argument: argument 5's buffer is as it was. -/
theorem keeps_arg5 (W : Valuation τ sig (Elt Ideal)) :
    StableHlo.after (hostOps0 (F := Ideal)) W (Proc.devRef .tc main_arg5) = W (Proc.devRef .tc main_arg5) := by
  after_results <;> rfl

set_option maxHeartbeats 4000000 in
/-- The first stretch writes no argument: argument 6's buffer is as it was. -/
theorem keeps_arg6 (W : Valuation τ sig (Elt Ideal)) :
    StableHlo.after (hostOps0 (F := Ideal)) W (Proc.devRef .tc main_arg6) = W (Proc.devRef .tc main_arg6) := by
  after_results <;> rfl

set_option maxHeartbeats 4000000 in
/-- The first stretch writes no argument: argument 7's buffer is as it was. -/
theorem keeps_arg7 (W : Valuation τ sig (Elt Ideal)) :
    StableHlo.after (hostOps0 (F := Ideal)) W (Proc.devRef .tc main_arg7) = W (Proc.devRef .tc main_arg7) := by
  after_results <;> rfl

set_option maxHeartbeats 4000000 in
/-- The first stretch writes no argument: argument 8's buffer is as it was. -/
theorem keeps_arg8 (W : Valuation τ sig (Elt Ideal)) :
    StableHlo.after (hostOps0 (F := Ideal)) W (Proc.devRef .tc main_arg8) = W (Proc.devRef .tc main_arg8) := by
  after_results <;> rfl

end Cert.KernelIdeal.PreRest

end
-- ==== Proof.KernelValue.lean ====
/-
  The kernel program's result as one function of its arguments.

  node features x, edge list e, edge features a, graph features u, graph numbers g, weights and biases W1 b1 W2 b2:
    messages = clamped dense layer of [x at the destination nodes | x at the source nodes | a | (u at the nodes'
               graphs) at the source nodes], with W1 and b1   (the edge region, over the first host stretch);
    sums     = the messages added per destination node          (the second host stretch);
    result   = clamped dense layer of [x | sums | u at the nodes' graphs], with W2 and b2   (the node region).
  Each region's output array is its layer of the arrays the region finds (EdgeRegion.final, NodeRegion.final); the
  arrays it finds are what the host stretch before it leaves, read here buffer by buffer.
-/
import proofs.«113929_j70153995813296_2_alg».proof.Proof.KernelRun
import proofs.«113929_j70153995813296_2_alg».proof.Proof.EdgeRegion
import proofs.«113929_j70153995813296_2_alg».proof.Proof.NodeRegion
import proofs.«113929_j70153995813296_2_alg».proof.Proof.PreDest
import proofs.«113929_j70153995813296_2_alg».proof.Proof.PreSrc
import proofs.«113929_j70153995813296_2_alg».proof.Proof.PreGraph
import proofs.«113929_j70153995813296_2_alg».proof.Proof.PreRest
import proofs.«113929_j70153995813296_2_alg».proof.Proof.HostParts

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen Cert.KernelIdeal.HostParts

/-- The whole computation as one function of the nine arguments. -/
def layer (x : S100000x32.Idx → EReal) (e : (⟨S2x1600000, .i32⟩ : BufTy).Contents (Elt Ideal)) (a : S1600000x32.Idx → EReal)
    (u : S64x32.Idx → EReal) (g : (⟨S100000, .i32⟩ : BufTy).Contents (Elt Ideal))
    (W1 : S128x64.Idx → EReal) (b1 : S64.Idx → EReal) (W2 : S128x64.Idx → EReal) (b2 : S64.Idx → EReal) :
    S100000x64.Idx → EReal :=
  NodeRegion.update x
    (segmentSum (F := Ideal) (dstIdx e)
      (EdgeRegion.messages (rowsAt (F := Ideal) x (dstIdx e)) (rowsAt (F := Ideal) x (srcIdx e)) a
        (rowsAt (F := Ideal) (graphRows (F := Ideal) u g) (srcIdx e)) W1 b1))
    (graphRows (F := Ideal) u g) W2 b2

/-! ## The second host stretch, from any contents -/

/-- The second stretch leaves, in the buffer of sums, the segment sum of the messages' buffer at the destination
    nodes' buffer. -/
theorem mid_sums (W : Valuation τ sig (Elt Ideal)) :
    StableHlo.after (hostOps1 (F := Ideal)) W (Proc.devRef .tc main_v35)
      = segmentSum (W (Proc.devRef .tc main_v3)) (W (Proc.devRef .tc main_v32)) := by
  after_results <;> rfl

theorem mid_keeps_arg0 (W : Valuation τ sig (Elt Ideal)) :
    StableHlo.after (hostOps1 (F := Ideal)) W (Proc.devRef .tc main_arg0) = W (Proc.devRef .tc main_arg0) := by
  after_results <;> rfl
theorem mid_keeps_arg7 (W : Valuation τ sig (Elt Ideal)) :
    StableHlo.after (hostOps1 (F := Ideal)) W (Proc.devRef .tc main_arg7) = W (Proc.devRef .tc main_arg7) := by
  after_results <;> rfl
theorem mid_keeps_arg8 (W : Valuation τ sig (Elt Ideal)) :
    StableHlo.after (hostOps1 (F := Ideal)) W (Proc.devRef .tc main_arg8) = W (Proc.devRef .tc main_arg8) := by
  after_results <;> rfl
theorem mid_keeps_graph_rows (W : Valuation τ sig (Elt Ideal)) :
    StableHlo.after (hostOps1 (F := Ideal)) W (Proc.devRef .tc main_v10) = W (Proc.devRef .tc main_v10) := by
  after_results <;> rfl

variable (m : (ℓ : Loc nD τ sig) → Buf (Elt Ideal) ℓ) (ρ : Dev nD → PrngReg)

/-! ## What the edge region finds -/

theorem V1_dest (c : Dev nD) : V1 m ρ c main_v24 = rowsAt (m ((c : Thread nD τ).loc main_arg0)) (dstIdx (m ((c : Thread nD τ).loc main_arg1))) :=
  PreDest.dest_rows (W0 m ρ c)
theorem V1_src (c : Dev nD) : V1 m ρ c main_v31 = rowsAt (m ((c : Thread nD τ).loc main_arg0)) (srcIdx (m ((c : Thread nD τ).loc main_arg1))) :=
  PreSrc.src_rows (W0 m ρ c)
theorem V1_graph (c : Dev nD) : V1 m ρ c main_v17 = rowsAt (graphRows (m ((c : Thread nD τ).loc main_arg3)) (m ((c : Thread nD τ).loc main_arg4))) (srcIdx (m ((c : Thread nD τ).loc main_arg1))) :=
  PreGraph.graph_rows_of_src (W0 m ρ c)
theorem V1_arg2 (c : Dev nD) : V1 m ρ c main_arg2 = (m ((c : Thread nD τ).loc main_arg2)) := PreRest.keeps_arg2 (W0 m ρ c)
theorem V1_arg5 (c : Dev nD) : V1 m ρ c main_arg5 = (m ((c : Thread nD τ).loc main_arg5)) := PreRest.keeps_arg5 (W0 m ρ c)
theorem V1_arg6 (c : Dev nD) : V1 m ρ c main_arg6 = (m ((c : Thread nD τ).loc main_arg6)) := PreRest.keeps_arg6 (W0 m ρ c)

/-- The messages' array after the edge region, from the arguments. -/
theorem messages_eq (c : Dev nD) :
    (dat0 (V1 m ρ) c).arrAt 6 cfg0.N
      = EdgeRegion.messages (rowsAt (m ((c : Thread nD τ).loc main_arg0)) (dstIdx (m ((c : Thread nD τ).loc main_arg1)))) (rowsAt (m ((c : Thread nD τ).loc main_arg0)) (srcIdx (m ((c : Thread nD τ).loc main_arg1)))) (m ((c : Thread nD τ).loc main_arg2))
          (rowsAt (graphRows (m ((c : Thread nD τ).loc main_arg3)) (m ((c : Thread nD τ).loc main_arg4))) (srcIdx (m ((c : Thread nD τ).loc main_arg1)))) (m ((c : Thread nD τ).loc main_arg5)) (m ((c : Thread nD τ).loc main_arg6)) := by
  rw [EdgeRegion.final (V1 m ρ) c, V1_dest m ρ c, V1_src m ρ c, V1_graph m ρ c, V1_arg2 m ρ c, V1_arg5 m ρ c, V1_arg6 m ρ c]

/-! ## What the node region finds -/

theorem V3_arg0 (c : Dev nD) : V3 m ρ c main_arg0 = (m ((c : Thread nD τ).loc main_arg0)) :=
  (mid_keeps_arg0 (W2 m ρ c)).trans ((W2_of_ne m ρ c main_arg0 (by decide)).trans (PreRest.keeps_arg0 (W0 m ρ c)))
theorem V3_arg7 (c : Dev nD) : V3 m ρ c main_arg7 = (m ((c : Thread nD τ).loc main_arg7)) :=
  (mid_keeps_arg7 (W2 m ρ c)).trans ((W2_of_ne m ρ c main_arg7 (by decide)).trans (PreRest.keeps_arg7 (W0 m ρ c)))
theorem V3_arg8 (c : Dev nD) : V3 m ρ c main_arg8 = (m ((c : Thread nD τ).loc main_arg8)) :=
  (mid_keeps_arg8 (W2 m ρ c)).trans ((W2_of_ne m ρ c main_arg8 (by decide)).trans (PreRest.keeps_arg8 (W0 m ρ c)))
theorem V3_graph (c : Dev nD) : V3 m ρ c main_v10 = graphRows (m ((c : Thread nD τ).loc main_arg3)) (m ((c : Thread nD τ).loc main_arg4)) :=
  (mid_keeps_graph_rows (W2 m ρ c)).trans ((W2_of_ne m ρ c main_v10 (by decide)).trans (PreRest.graph_rows (W0 m ρ c)))

/-- The sums' array when the node region is entered, from the arguments. -/
theorem V3_sums (c : Dev nD) :
    V3 m ρ c main_v35
      = segmentSum (dstIdx (m ((c : Thread nD τ).loc main_arg1)))
          (EdgeRegion.messages (rowsAt (m ((c : Thread nD τ).loc main_arg0)) (dstIdx (m ((c : Thread nD τ).loc main_arg1)))) (rowsAt (m ((c : Thread nD τ).loc main_arg0)) (srcIdx (m ((c : Thread nD τ).loc main_arg1)))) (m ((c : Thread nD τ).loc main_arg2))
            (rowsAt (graphRows (m ((c : Thread nD τ).loc main_arg3)) (m ((c : Thread nD τ).loc main_arg4))) (srcIdx (m ((c : Thread nD τ).loc main_arg1)))) (m ((c : Thread nD τ).loc main_arg5)) (m ((c : Thread nD τ).loc main_arg6))) := by
  have h3 : W2 m ρ c (Proc.devRef .tc main_v3) = dstIdx (m ((c : Thread nD τ).loc main_arg1)) :=
    (W2_of_ne m ρ c main_v3 (by decide)).trans (PreRest.dest_nodes (W0 m ρ c))
  have h32 : W2 m ρ c (Proc.devRef .tc main_v32) = _ := (W2_arr m ρ c 6).trans (messages_eq m ρ c)
  exact (mid_sums (W2 m ρ c)).trans (by rw [h3, h32])

/-- The result's array after the node region, from the arguments. -/
theorem result_eq (c : Dev nD) :
    (dat1 (V3 m ρ) c).arrAt 5 cfg1.N = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [NodeRegion.final (V3 m ρ) c, V3_arg0 m ρ c, V3_sums m ρ c, V3_graph m ρ c, V3_arg7 m ρ c, V3_arg8 m ρ c]
  rfl

/-- Every weakly fair execution of the kernel program terminates, nothing faulting, with the result's buffer at
    the layer of the arguments and every argument as launched. -/
theorem run_value : θ_run defs (onTc (τ := τ) (main (F := Ideal))) ⟨m, fun _ => 0, ρ⟩ (fun r => ∀ c : Dev nD,
      r.2.mem ((c.tc : Thread nD τ).loc main_v36) = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (KernelRun.run_named m ρ)

end Cert.KernelIdeal.KernelValue

end
-- ==== Proof.LibAfterAppend.lean ====
/-
  A line of host operations run in two parts.

  The buffer contents after a list of host operations are a fold of the operations over the starting contents, so the
  contents after a concatenation are those after the second part, started from what the first part left. A long line
  one of whose intermediate results is read several times can thus be read part by part, the shared result kept as
  one term.
-/
import Idealize.ShloMosaic.Lib.StableHlo.Run

namespace Cert.LibAfterAppend

open Idealize.ShloMosaic Idealize.ShloMosaic.StableHlo

variable {τ : Topo} {sig : RefSig} {Val : EltTy → Type}

/-- Running `l₁ ++ l₂` from the contents `V` is running `l₂` from what `l₁` leaves of `V`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfterAppend
-- ==== Proof.RefRun.lean ====
/-
  The reference program's run, read in two parts.

  Its @main is a line of 60 host operations and no kernel: the first 40 (the two rows of the edge list, the index
  columns, the four gathers) are the operations the kernel program runs before its first region, the last 20 are the
  two dense layers with the segment sum between them. Every weakly fair execution terminates with every buffer at
  the fold of the 60 operations over the launch contents, which is the fold of the last 20 over what the first 40
  leave.
-/
import proofs.«113929_j70153995813296_2_alg».proof.Proof.Gen.ReferenceIdeal
import proofs.«113929_j70153995813296_2_alg».proof.Proof.LibAfterAppend
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 40 operations: from the arguments to the four gathered arrays. -/
abbrev pre : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S100000 ![] bcast_S_S100000 : (⟨S_, .i32⟩ : BufTy).Contents (Elt F) → (⟨S100000, .i32⟩ : BufTy).Contents (Elt F)),
    binary main_arg4 main_v4 main_v5 (cmpi .slt : (⟨S100000, .i32⟩ : BufTy).Contents (Elt F) → (⟨S100000, .i32⟩ : BufTy).Contents (Elt F) → (⟨S100000, .i1⟩ : BufTy).Contents (Elt F)),
    nullary main_c_0 (constantI S_ 32 64#32),
    unary main_c_0 main_v6 (broadcastInDim S100000 ![] bcast_S_S100000 : (⟨S_, .i32⟩ : BufTy).Contents (Elt F) → (⟨S100000, .i32⟩ : BufTy).Contents (Elt F)),
    binary main_arg4 main_v6 main_v7 (addi : (⟨S100000, .i32⟩ : BufTy).Contents (Elt F) → (⟨S100000, .i32⟩ : BufTy).Contents (Elt F) → (⟨S100000, .i32⟩ : BufTy).Contents (Elt F)),
    ternary main_v5 main_v7 main_arg4 main_v8 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v8 main_v9 (broadcastInDim S100000x1 ![0] bcast_S100000_S100000x1_0 : (⟨S100000, .i32⟩ : BufTy).Contents (Elt F) → (⟨S100000x1, .i32⟩ : BufTy).Contents (Elt F)),
    binary main_arg3 main_v9 main_v10 ((fun x i => Host.gather gather_S64x32_S100000x1_S100000x32_1_0_n_n_0_1_132 x i) : (⟨S64x32, .f32⟩ : BufTy).Contents (Elt F) → (⟨S100000x1, .i32⟩ : BufTy).Contents (Elt F) → (⟨S100000x32, .f32⟩ : BufTy).Contents (Elt F)),
    nullary main_c_1 (constantI S_ 32 0#32),
    unary main_c_1 main_v11 (broadcastInDim S1600000 ![] bcast_S_S1600000 : (⟨S_, .i32⟩ : BufTy).Contents (Elt F) → (⟨S1600000, .i32⟩ : BufTy).Contents (Elt F)),
    binary main_v1 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v13 (broadcastInDim S1600000 ![] bcast_S_S1600000 : (⟨S_, .i32⟩ : BufTy).Contents (Elt F) → (⟨S1600000, .i32⟩ : BufTy).Contents (Elt F)),
    binary main_v1 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_v10 main_v16 main_v17 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_c_3 (constantI S_ 32 0#32),
    unary main_c_3 main_v18 (broadcastInDim S1600000 ![] bcast_S_S1600000 : (⟨S_, .i32⟩ : BufTy).Contents (Elt F) → (⟨S1600000, .i32⟩ : BufTy).Contents (Elt F)),
    binary main_v3 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v20 (broadcastInDim S1600000 ![] bcast_S_S1600000 : (⟨S_, .i32⟩ : BufTy).Contents (Elt F) → (⟨S1600000, .i32⟩ : BufTy).Contents (Elt F)),
    binary main_v3 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_v3 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_arg0 main_v23 main_v24 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_c_5 (constantI S_ 32 0#32),
    unary main_c_5 main_v25 (broadcastInDim S1600000 ![] bcast_S_S1600000 : (⟨S_, .i32⟩ : BufTy).Contents (Elt F) → (⟨S1600000, .i32⟩ : BufTy).Contents (Elt F)),
    binary main_v1 main_v25 main_v26 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v27 (broadcastInDim S1600000 ![] bcast_S_S1600000 : (⟨S_, .i32⟩ : BufTy).Contents (Elt F) → (⟨S1600000, .i32⟩ : BufTy).Contents (Elt F)),
    binary main_v1 main_v27 main_v28 (addi : (⟨S1600000, .i32⟩ : BufTy).Contents (Elt F) → (⟨S1600000, .i32⟩ : BufTy).Contents (Elt F) → (⟨S1600000, .i32⟩ : BufTy).Contents (Elt F)),
    ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v29 main_v30 (broadcastInDim S1600000x1 ![0] bcast_S1600000_S1600000x1_0 : (⟨S1600000, .i32⟩ : BufTy).Contents (Elt F) → (⟨S1600000x1, .i32⟩ : BufTy).Contents (Elt F)),
    binary main_arg0 main_v30 main_v31 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)) ]

/-- The last 20 operations: the edge layer, the segment sum, the node layer. -/
abbrev tail : List (HloOp τ sig (Elt F)) :=
  [ nary ![main_v24, main_v31, main_arg2, main_v17] main_v32 (fun u => concatenate S1600000x128 1 [⟨S1600000x32, u 0⟩, ⟨S1600000x32, u 1⟩, ⟨S1600000x32, u 2⟩, ⟨S1600000x32, u 3⟩] concatenates_S1600000x32_S1600000x32_S1600000x32_S1600000x32_S1600000x128_d1),
    binary main_v32 main_arg5 main_v33 ((fun l r => Host.dotGeneral dot_S1600000x128_S128x64_S1600000x64_1_0_0_1_n_n none l r) : (⟨S1600000x128, .f32⟩ : BufTy).Contents (Elt F) → (⟨S128x64, .f32⟩ : BufTy).Contents (Elt F) → (⟨S1600000x64, .f32⟩ : BufTy).Contents (Elt F)),
    unary main_arg6 main_v34 (broadcastInDim S1x64 ![1] bcast_S64_S1x64_1 : (⟨S64, .f32⟩ : BufTy).Contents (Elt F) → (⟨S1x64, .f32⟩ : BufTy).Contents (Elt F)),
    unary main_v34 main_v35 (broadcastInDim S1600000x64 ![0, 1] bcast_S1x64_S1600000x64_0_1 : (⟨S1x64, .f32⟩ : BufTy).Contents (Elt F) → (⟨S1600000x64, .f32⟩ : BufTy).Contents (Elt F)),
    binary main_v33 main_v35 main_v36 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1600000x64, .f32⟩) main_call0_v0) (broadcastInDim S1600000x64 ![] bcast_S_S1600000x64),
    TRef.binary (TRef.of (T := ⟨S1600000x64, .f32⟩) main_v36) (TRef.of (T := ⟨S1600000x64, .f32⟩) main_call0_v0) (TRef.of (T := ⟨S1600000x64, .f32⟩) main_v37) maximumf,
    nullary main_cst (constant S_ .f32 0x00000000#32),
    unary main_cst main_v38 (broadcastInDim S100000x64 ![] bcast_S_S100000x64 : (⟨S_, .f32⟩ : BufTy).Contents (Elt F) → (⟨S100000x64, .f32⟩ : BufTy).Contents (Elt F)),
    unary main_v3 main_v39 (broadcastInDim S1600000x1 ![0] bcast_S1600000_S1600000x1_0 : (⟨S1600000, .i32⟩ : BufTy).Contents (Elt F) → (⟨S1600000x1, .i32⟩ : BufTy).Contents (Elt F)),
    ternary main_v38 main_v39 main_v37 main_v40 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nary ![main_arg0, main_v40, main_v10] main_v41 (fun u => concatenate S100000x128 1 [⟨S100000x32, u 0⟩, ⟨S100000x64, u 1⟩, ⟨S100000x32, u 2⟩] concatenates_S100000x32_S100000x64_S100000x32_S100000x128_d1),
    binary main_v41 main_arg7 main_v42 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v43 (broadcastInDim S1x64 ![1] bcast_S64_S1x64_1 : (⟨S64, .f32⟩ : BufTy).Contents (Elt F) → (⟨S1x64, .f32⟩ : BufTy).Contents (Elt F)),
    unary main_v43 main_v44 (broadcastInDim S100000x64 ![0, 1] bcast_S1x64_S100000x64_0_1 : (⟨S1x64, .f32⟩ : BufTy).Contents (Elt F) → (⟨S100000x64, .f32⟩ : BufTy).Contents (Elt F)),
    binary main_v42 main_v44 main_v45 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v45) (TRef.of (T := ⟨S100000x64, .f32⟩) main_call1_v0) (TRef.of (T := ⟨S100000x64, .f32⟩) main_v46) maximumf ]

/-- @main's 60 operations, in order. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S100000 ![] bcast_S_S100000 : (⟨S_, .i32⟩ : BufTy).Contents (Elt F) → (⟨S100000, .i32⟩ : BufTy).Contents (Elt F)),
    binary main_arg4 main_v4 main_v5 (cmpi .slt : (⟨S100000, .i32⟩ : BufTy).Contents (Elt F) → (⟨S100000, .i32⟩ : BufTy).Contents (Elt F) → (⟨S100000, .i1⟩ : BufTy).Contents (Elt F)),
    nullary main_c_0 (constantI S_ 32 64#32),
    unary main_c_0 main_v6 (broadcastInDim S100000 ![] bcast_S_S100000 : (⟨S_, .i32⟩ : BufTy).Contents (Elt F) → (⟨S100000, .i32⟩ : BufTy).Contents (Elt F)),
    binary main_arg4 main_v6 main_v7 (addi : (⟨S100000, .i32⟩ : BufTy).Contents (Elt F) → (⟨S100000, .i32⟩ : BufTy).Contents (Elt F) → (⟨S100000, .i32⟩ : BufTy).Contents (Elt F)),
    ternary main_v5 main_v7 main_arg4 main_v8 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v8 main_v9 (broadcastInDim S100000x1 ![0] bcast_S100000_S100000x1_0 : (⟨S100000, .i32⟩ : BufTy).Contents (Elt F) → (⟨S100000x1, .i32⟩ : BufTy).Contents (Elt F)),
    binary main_arg3 main_v9 main_v10 ((fun x i => Host.gather gather_S64x32_S100000x1_S100000x32_1_0_n_n_0_1_132 x i) : (⟨S64x32, .f32⟩ : BufTy).Contents (Elt F) → (⟨S100000x1, .i32⟩ : BufTy).Contents (Elt F) → (⟨S100000x32, .f32⟩ : BufTy).Contents (Elt F)),
    nullary main_c_1 (constantI S_ 32 0#32),
    unary main_c_1 main_v11 (broadcastInDim S1600000 ![] bcast_S_S1600000 : (⟨S_, .i32⟩ : BufTy).Contents (Elt F) → (⟨S1600000, .i32⟩ : BufTy).Contents (Elt F)),
    binary main_v1 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v13 (broadcastInDim S1600000 ![] bcast_S_S1600000 : (⟨S_, .i32⟩ : BufTy).Contents (Elt F) → (⟨S1600000, .i32⟩ : BufTy).Contents (Elt F)),
    binary main_v1 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_v10 main_v16 main_v17 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_c_3 (constantI S_ 32 0#32),
    unary main_c_3 main_v18 (broadcastInDim S1600000 ![] bcast_S_S1600000 : (⟨S_, .i32⟩ : BufTy).Contents (Elt F) → (⟨S1600000, .i32⟩ : BufTy).Contents (Elt F)),
    binary main_v3 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v20 (broadcastInDim S1600000 ![] bcast_S_S1600000 : (⟨S_, .i32⟩ : BufTy).Contents (Elt F) → (⟨S1600000, .i32⟩ : BufTy).Contents (Elt F)),
    binary main_v3 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_v3 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_arg0 main_v23 main_v24 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_c_5 (constantI S_ 32 0#32),
    unary main_c_5 main_v25 (broadcastInDim S1600000 ![] bcast_S_S1600000 : (⟨S_, .i32⟩ : BufTy).Contents (Elt F) → (⟨S1600000, .i32⟩ : BufTy).Contents (Elt F)),
    binary main_v1 main_v25 main_v26 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v27 (broadcastInDim S1600000 ![] bcast_S_S1600000 : (⟨S_, .i32⟩ : BufTy).Contents (Elt F) → (⟨S1600000, .i32⟩ : BufTy).Contents (Elt F)),
    binary main_v1 main_v27 main_v28 (addi : (⟨S1600000, .i32⟩ : BufTy).Contents (Elt F) → (⟨S1600000, .i32⟩ : BufTy).Contents (Elt F) → (⟨S1600000, .i32⟩ : BufTy).Contents (Elt F)),
    ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v29 main_v30 (broadcastInDim S1600000x1 ![0] bcast_S1600000_S1600000x1_0 : (⟨S1600000, .i32⟩ : BufTy).Contents (Elt F) → (⟨S1600000x1, .i32⟩ : BufTy).Contents (Elt F)),
    binary main_arg0 main_v30 main_v31 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nary ![main_v24, main_v31, main_arg2, main_v17] main_v32 (fun u => concatenate S1600000x128 1 [⟨S1600000x32, u 0⟩, ⟨S1600000x32, u 1⟩, ⟨S1600000x32, u 2⟩, ⟨S1600000x32, u 3⟩] concatenates_S1600000x32_S1600000x32_S1600000x32_S1600000x32_S1600000x128_d1),
    binary main_v32 main_arg5 main_v33 ((fun l r => Host.dotGeneral dot_S1600000x128_S128x64_S1600000x64_1_0_0_1_n_n none l r) : (⟨S1600000x128, .f32⟩ : BufTy).Contents (Elt F) → (⟨S128x64, .f32⟩ : BufTy).Contents (Elt F) → (⟨S1600000x64, .f32⟩ : BufTy).Contents (Elt F)),
    unary main_arg6 main_v34 (broadcastInDim S1x64 ![1] bcast_S64_S1x64_1 : (⟨S64, .f32⟩ : BufTy).Contents (Elt F) → (⟨S1x64, .f32⟩ : BufTy).Contents (Elt F)),
    unary main_v34 main_v35 (broadcastInDim S1600000x64 ![0, 1] bcast_S1x64_S1600000x64_0_1 : (⟨S1x64, .f32⟩ : BufTy).Contents (Elt F) → (⟨S1600000x64, .f32⟩ : BufTy).Contents (Elt F)),
    binary main_v33 main_v35 main_v36 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1600000x64, .f32⟩) main_call0_v0) (broadcastInDim S1600000x64 ![] bcast_S_S1600000x64),
    TRef.binary (TRef.of (T := ⟨S1600000x64, .f32⟩) main_v36) (TRef.of (T := ⟨S1600000x64, .f32⟩) main_call0_v0) (TRef.of (T := ⟨S1600000x64, .f32⟩) main_v37) maximumf,
    nullary main_cst (constant S_ .f32 0x00000000#32),
    unary main_cst main_v38 (broadcastInDim S100000x64 ![] bcast_S_S100000x64 : (⟨S_, .f32⟩ : BufTy).Contents (Elt F) → (⟨S100000x64, .f32⟩ : BufTy).Contents (Elt F)),
    unary main_v3 main_v39 (broadcastInDim S1600000x1 ![0] bcast_S1600000_S1600000x1_0 : (⟨S1600000, .i32⟩ : BufTy).Contents (Elt F) → (⟨S1600000x1, .i32⟩ : BufTy).Contents (Elt F)),
    ternary main_v38 main_v39 main_v37 main_v40 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nary ![main_arg0, main_v40, main_v10] main_v41 (fun u => concatenate S100000x128 1 [⟨S100000x32, u 0⟩, ⟨S100000x64, u 1⟩, ⟨S100000x32, u 2⟩] concatenates_S100000x32_S100000x64_S100000x32_S100000x128_d1),
    binary main_v41 main_arg7 main_v42 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v43 (broadcastInDim S1x64 ![1] bcast_S64_S1x64_1 : (⟨S64, .f32⟩ : BufTy).Contents (Elt F) → (⟨S1x64, .f32⟩ : BufTy).Contents (Elt F)),
    unary main_v43 main_v44 (broadcastInDim S100000x64 ![0, 1] bcast_S1x64_S100000x64_0_1 : (⟨S1x64, .f32⟩ : BufTy).Contents (Elt F) → (⟨S100000x64, .f32⟩ : BufTy).Contents (Elt F)),
    binary main_v42 main_v44 main_v45 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v45) (TRef.of (T := ⟨S100000x64, .f32⟩) main_call1_v0) (TRef.of (T := ⟨S100000x64, .f32⟩) main_v46) maximumf ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nary_bufs_sub .., binary_bufs_sub .., unary_bufs_sub .., unary_bufs_sub .., binary_bufs_sub .., nullary_bufs_sub .., unary_bufs_sub .., binary_bufs_sub ..⟩

set_option maxRecDepth 8192 in
/-- The 60 operations are the first 40 followed by the last 20. -/
theorem ops_split : (ops : List (HloOp τ sig (Elt F))) = pre ++ tail := rfl

set_option maxRecDepth 8192 in
/-- Every weakly fair execution of the reference terminates with every buffer at the last 20 operations' fold over
    what the first 40 leave of the launch contents. -/
theorem run_parts (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after tail (after pre (launchContents m d)) (Proc.devRef .tc b) :=
  (θ_run defs _ _).mono (fun _ h d b => (h d b).trans (by rw [ops_split, Cert.LibAfterAppend.after_append]))
    (run_seq scopedRefs_eq scopedSems_eq defs main (fun _ => ops) main_eq (fun _ => ops_sub) m ρ)

end Cert.ReferenceIdeal.RefRun

end
-- ==== Proof.RefHostParts.lean ====
/-
  The host operations around the dense layers, named once.

  From the [2, 1600000] edge list: its row 0 (each edge's source node) and row 1 (each edge's destination node).
  A list of node numbers becomes a column of row numbers, a negative number counted from the end (100000 added).
  rowsAt gathers, for each edge, the row of a [100000, 32] array at that column's entry; graphRows gathers, for
  each node, the row of the [64, 32] graph features at the node's graph number (a negative one counted from the
  end, 64 added); segmentSum adds each edge's [64] message into the row of its destination node, from zero.
-/
import proofs.«113929_j70153995813296_2_alg».proof.Proof.Gen.ReferenceIdeal

noncomputable section

namespace Cert.ReferenceIdeal.HostParts

open Idealize.ShloMosaic Cert.ReferenceIdeal Cert.ReferenceIdeal.Gen

variable {F : FTy → Type} [FloatOps F]

/-- Row 0 of the edge list: each edge's source node. -/
def srcIdx (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Row 1 of the edge list: each edge's destination node. -/
def dstIdx (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- Node numbers as a column of row numbers, a negative number counted from the end. -/
def nodeColumn (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- For each edge, the row of a per-node array at the edge's node. -/
def rowsAt (x : (⟨S100000x32, .f32⟩ : BufTy).Contents (Elt F)) (v : (⟨S1600000, .i32⟩ : BufTy).Contents (Elt F)) :
    (⟨S1600000x32, .f32⟩ : BufTy).Contents (Elt F) :=
  Host.gather gather_S100000x32_S1600000x1_S1600000x32_1_0_n_n_0_1_132 x (nodeColumn v)

/-- For each node, the row of the per-graph features at the node's graph. -/
def graphRows (u : (⟨S64x32, .f32⟩ : BufTy).Contents (Elt F)) (b : (⟨S100000, .i32⟩ : BufTy).Contents (Elt F)) :
    (⟨S100000x32, .f32⟩ : BufTy).Contents (Elt F) :=
  Host.gather gather_S64x32_S100000x1_S100000x32_1_0_n_n_0_1_132 u
    (broadcastInDim S100000x1 ![0] bcast_S100000_S100000x1_0
      (select (cmpi .slt b (broadcastInDim S100000 ![] bcast_S_S100000 (constantI S_ 32 0#32)))
        (addi b (broadcastInDim S100000 ![] bcast_S_S100000 (constantI S_ 32 64#32))) b))

/-- Each edge's message added into the row of its destination node, from zero. -/
def segmentSum (d : (⟨S1600000, .i32⟩ : BufTy).Contents (Elt F)) (msg : (⟨S1600000x64, .f32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d) msg

end Cert.ReferenceIdeal.HostParts

end
-- ==== Proof.RefLayers.lean ====
/-
  The reference's two dense layers, as the host computes them and as one function each.

  The reference joins four [1600000, 32] arrays side by side, multiplies by the [128, 64] weights, adds the bias
  (broadcast first to a [1, 64] row, then down the rows) and takes the maximum with the broadcast zero: at (a, b)
  that is max(Σ_c X(a, c) · W(c, b) + B(b), 0) for X the joined array: the clamped dense layer of the joined array
  with the bias as its row. The node layer is the same over three [100000, ·] arrays of widths 32, 64, 32.
-/
import proofs.«113929_j70153995813296_2_alg».proof.Proof.Gen.ReferenceIdeal
import proofs.«113929_j70153995813296_2_alg».proof.Proof.LibReluRows

noncomputable section

namespace Cert.ReferenceIdeal.Layers

open Idealize.ShloMosaic Cert.ReferenceIdeal Cert.ReferenceIdeal.Gen Cert.ReluRows

/-- A length-64 vector laid out as a [1, 64] row. -/
theorem rowCast : S64.ShapeCasts S1x64 := by decide

/-- The edge layer as the host operations compute it. -/
def hostMessages (A0 A1 A2 A3 : FVec Ideal S1600000x32 .f32) (W : FVec Ideal S128x64 .f32) (B : FVec Ideal S64 .f32) : FVec Ideal S1600000x64 .f32 :=
  maximumf (addf (Host.dotGeneral (φ₁ := .f32) (φ₂ := .f32) dot_S1600000x128_S128x64_S1600000x64_1_0_0_1_n_n none
        (concatenate S1600000x128 1 [⟨S1600000x32, A0⟩, ⟨S1600000x32, A1⟩, ⟨S1600000x32, A2⟩, ⟨S1600000x32, A3⟩]
          concatenates_S1600000x32_S1600000x32_S1600000x32_S1600000x32_S1600000x128_d1) W)
      (broadcastInDim S1600000x64 ![0, 1] bcast_S1x64_S1600000x64_0_1 (broadcastInDim S1x64 ![1] bcast_S64_S1x64_1 B)))
    (broadcastInDim S1600000x64 ![] bcast_S_S1600000x64 (constant (F := Ideal) S_ .f32 0x00000000#32))

/-- The messages: the clamped dense layer of four [1600000, 32] arrays joined side by side. -/
def messages (A0 A1 A2 A3 : S1600000x32.Idx → EReal) (W : S128x64.Idx → EReal) (B : S64.Idx → EReal) :
    S1600000x64.Idx → EReal :=
  reluRows (concatenate S1600000x128 1 [⟨S1600000x32, A0⟩, ⟨S1600000x32, A1⟩, ⟨S1600000x32, A2⟩, ⟨S1600000x32, A3⟩]
      concatenates_S1600000x32_S1600000x32_S1600000x32_S1600000x32_S1600000x128_d1)
    W (shapeCast S1x64 B rowCast)

theorem hostMessages_eq (A0 A1 A2 A3 : FVec Ideal S1600000x32 .f32) (W : FVec Ideal S128x64 .f32) (B : FVec Ideal S64 .f32) :
    hostMessages A0 A1 A2 A3 W B = messages A0 A1 A2 A3 W B :=
  host_reluRows
    (concatenate S1600000x128 1 [⟨S1600000x32, A0⟩, ⟨S1600000x32, A1⟩, ⟨S1600000x32, A2⟩, ⟨S1600000x32, A3⟩]
      concatenates_S1600000x32_S1600000x32_S1600000x32_S1600000x32_S1600000x128_d1)
    W B bcast_S64_S1x64_1 bcast_S1x64_S1600000x64_0_1 bcast_S_S1600000x64 rowCast

/-- The node layer as the host operations compute it. -/
def hostUpdate (A0 : FVec Ideal S100000x32 .f32) (A1 : FVec Ideal S100000x64 .f32) (A2 : FVec Ideal S100000x32 .f32) (W : FVec Ideal S128x64 .f32) (B : FVec Ideal S64 .f32) : FVec Ideal S100000x64 .f32 :=
  maximumf (addf (Host.dotGeneral (φ₁ := .f32) (φ₂ := .f32) dot_S100000x128_S128x64_S100000x64_1_0_0_1_n_n none
        (concatenate S100000x128 1 [⟨S100000x32, A0⟩, ⟨S100000x64, A1⟩, ⟨S100000x32, A2⟩]
          concatenates_S100000x32_S100000x64_S100000x32_S100000x128_d1) W)
      (broadcastInDim S100000x64 ![0, 1] bcast_S1x64_S100000x64_0_1 (broadcastInDim S1x64 ![1] bcast_S64_S1x64_1 B)))
    (broadcastInDim S100000x64 ![] bcast_S_S100000x64 (constant (F := Ideal) S_ .f32 0x00000000#32))

/-- The node update: the clamped dense layer of a [100000, 32], a [100000, 64] and a [100000, 32] array joined
    side by side. -/
def update (A0 : S100000x32.Idx → EReal) (A1 : S100000x64.Idx → EReal) (A2 : S100000x32.Idx → EReal)
    (W : S128x64.Idx → EReal) (B : S64.Idx → EReal) : S100000x64.Idx → EReal :=
  reluRows (concatenate S100000x128 1 [⟨S100000x32, A0⟩, ⟨S100000x64, A1⟩, ⟨S100000x32, A2⟩]
      concatenates_S100000x32_S100000x64_S100000x32_S100000x128_d1)
    W (shapeCast S1x64 B rowCast)

theorem hostUpdate_eq (A0 : FVec Ideal S100000x32 .f32) (A1 : FVec Ideal S100000x64 .f32) (A2 : FVec Ideal S100000x32 .f32) (W : FVec Ideal S128x64 .f32) (B : FVec Ideal S64 .f32) :
    hostUpdate A0 A1 A2 W B = update A0 A1 A2 W B :=
  host_reluRows
    (concatenate S100000x128 1 [⟨S100000x32, A0⟩, ⟨S100000x64, A1⟩, ⟨S100000x32, A2⟩]
      concatenates_S100000x32_S100000x64_S100000x32_S100000x128_d1)
    W B bcast_S64_S1x64_1 bcast_S1x64_S100000x64_0_1 bcast_S_S100000x64 rowCast

end Cert.ReferenceIdeal.Layers

end
-- ==== Proof.RefTail.lean ====
/-
  The reference's last 20 operations, read at the result and at the arguments: from any contents W the result's
  buffer ends at the node layer of (the node features, the segment sum of the edge layer of the four gathered
  arrays, the per-node graph features), each read from W; no argument is written.
-/
import proofs.«113929_j70153995813296_2_alg».proof.Proof.RefRun
import proofs.«113929_j70153995813296_2_alg».proof.Proof.RefHostParts
import proofs.«113929_j70153995813296_2_alg».proof.Proof.RefLayers
import Idealize.ShloMosaic.Lib.StableHlo.Run
import Idealize.ShloMosaic.PureOps.Ideal

noncomputable section

namespace Cert.ReferenceIdeal.RefTail

open Idealize.ShloMosaic Idealize.ShloMosaic.TcCoe Idealize.SL.Sem Idealize.ShloMosaic.StableHlo Cert.ReferenceIdeal Cert.ReferenceIdeal.Gen Cert.ReferenceIdeal.RefRun Cert.ReferenceIdeal.Layers Cert.ReferenceIdeal.HostParts

set_option maxHeartbeats 4000000 in
/-- The last 20 operations leave, in the result's buffer, the host's node layer over the host's segment sum of the host's edge layer. -/
theorem result (W : Valuation τ sig (Elt Ideal)) :
    StableHlo.after (tail (F := Ideal)) W (Proc.devRef .tc main_v46) = hostUpdate (W (Proc.devRef .tc main_arg0)) (segmentSum (W (Proc.devRef .tc main_v3)) (hostMessages (W (Proc.devRef .tc main_v24)) (W (Proc.devRef .tc main_v31)) (W (Proc.devRef .tc main_arg2)) (W (Proc.devRef .tc main_v17)) (W (Proc.devRef .tc main_arg5)) (W (Proc.devRef .tc main_arg6)))) (W (Proc.devRef .tc main_v10)) (W (Proc.devRef .tc main_arg7)) (W (Proc.devRef .tc main_arg8)) := by
  after_results <;> rfl

set_option maxHeartbeats 4000000 in
/-- The last 20 operations write no argument: argument 0's buffer is as it was. -/
theorem keeps_arg0 (W : Valuation τ sig (Elt Ideal)) :
    StableHlo.after (tail (F := Ideal)) W (Proc.devRef .tc main_arg0) = W (Proc.devRef .tc main_arg0) := by
  after_results <;> rfl

set_option maxHeartbeats 4000000 in
/-- The last 20 operations write no argument: argument 1's buffer is as it was. -/
theorem keeps_arg1 (W : Valuation τ sig (Elt Ideal)) :
    StableHlo.after (tail (F := Ideal)) W (Proc.devRef .tc main_arg1) = W (Proc.devRef .tc main_arg1) := by
  after_results <;> rfl

set_option maxHeartbeats 4000000 in
/-- The last 20 operations write no argument: argument 2's buffer is as it was. -/
theorem keeps_arg2 (W : Valuation τ sig (Elt Ideal)) :
    StableHlo.after (tail (F := Ideal)) W (Proc.devRef .tc main_arg2) = W (Proc.devRef .tc main_arg2) := by
  after_results <;> rfl

set_option maxHeartbeats 4000000 in
/-- The last 20 operations write no argument: argument 3's buffer is as it was. -/
theorem keeps_arg3 (W : Valuation τ sig (Elt Ideal)) :
    StableHlo.after (tail (F := Ideal)) W (Proc.devRef .tc main_arg3) = W (Proc.devRef .tc main_arg3) := by
  after_results <;> rfl

set_option maxHeartbeats 4000000 in
/-- The last 20 operations write no argument: argument 4's buffer is as it was. -/
theorem keeps_arg4 (W : Valuation τ sig (Elt Ideal)) :
    StableHlo.after (tail (F := Ideal)) W (Proc.devRef .tc main_arg4) = W (Proc.devRef .tc main_arg4) := by
  after_results <;> rfl

set_option maxHeartbeats 4000000 in
/-- The last 20 operations write no argument: argument 5's buffer is as it was. -/
theorem keeps_arg5 (W : Valuation τ sig (Elt Ideal)) :
    StableHlo.after (tail (F := Ideal)) W (Proc.devRef .tc main_arg5) = W (Proc.devRef .tc main_arg5) := by
  after_results <;> rfl

set_option maxHeartbeats 4000000 in
/-- The last 20 operations write no argument: argument 6's buffer is as it was. -/
theorem keeps_arg6 (W : Valuation τ sig (Elt Ideal)) :
    StableHlo.after (tail (F := Ideal)) W (Proc.devRef .tc main_arg6) = W (Proc.devRef .tc main_arg6) := by
  after_results <;> rfl

set_option maxHeartbeats 4000000 in
/-- The last 20 operations write no argument: argument 7's buffer is as it was. -/
theorem keeps_arg7 (W : Valuation τ sig (Elt Ideal)) :
    StableHlo.after (tail (F := Ideal)) W (Proc.devRef .tc main_arg7) = W (Proc.devRef .tc main_arg7) := by
  after_results <;> rfl

set_option maxHeartbeats 4000000 in
/-- The last 20 operations write no argument: argument 8's buffer is as it was. -/
theorem keeps_arg8 (W : Valuation τ sig (Elt Ideal)) :
    StableHlo.after (tail (F := Ideal)) W (Proc.devRef .tc main_arg8) = W (Proc.devRef .tc main_arg8) := by
  after_results <;> rfl

end Cert.ReferenceIdeal.RefTail

end
-- ==== Proof.RefPreDest.lean ====
/-
  The reference's first 40 operations read at the destination rows: after them, the buffer of x[dest] holds, for
  each edge, the row of the node features at the edge's destination node.
-/
import proofs.«113929_j70153995813296_2_alg».proof.Proof.RefRun
import proofs.«113929_j70153995813296_2_alg».proof.Proof.RefHostParts
import Idealize.ShloMosaic.Lib.StableHlo.Run
import Idealize.ShloMosaic.PureOps.Ideal

noncomputable section

namespace Cert.ReferenceIdeal.RefPreDest

open Idealize.ShloMosaic Idealize.ShloMosaic.TcCoe Idealize.SL.Sem Idealize.ShloMosaic.StableHlo Cert.ReferenceIdeal Cert.ReferenceIdeal.Gen Cert.ReferenceIdeal.RefRun Cert.ReferenceIdeal.HostParts

set_option maxHeartbeats 4000000 in
/-- After the first 40 operations the destination-row buffer is the node features gathered at the edges' destination nodes. -/
theorem dest_rows (W : Valuation τ sig (Elt Ideal)) :
    StableHlo.after (pre (F := Ideal)) W (Proc.devRef .tc main_v24) = rowsAt (W (Proc.devRef .tc main_arg0)) (dstIdx (W (Proc.devRef .tc main_arg1))) := by
  after_results <;> rfl

end Cert.ReferenceIdeal.RefPreDest

end
-- ==== Proof.RefPreSrc.lean ====
/-
  The reference's first 40 operations read at the source rows: after them, the buffer of x[src] holds, for each
  edge, the row of the node features at the edge's source node.
-/
import proofs.«113929_j70153995813296_2_alg».proof.Proof.RefRun
import proofs.«113929_j70153995813296_2_alg».proof.Proof.RefHostParts
import Idealize.ShloMosaic.Lib.StableHlo.Run
import Idealize.ShloMosaic.PureOps.Ideal

noncomputable section

namespace Cert.ReferenceIdeal.RefPreSrc

open Idealize.ShloMosaic Idealize.ShloMosaic.TcCoe Idealize.SL.Sem Idealize.ShloMosaic.StableHlo Cert.ReferenceIdeal Cert.ReferenceIdeal.Gen Cert.ReferenceIdeal.RefRun Cert.ReferenceIdeal.HostParts

set_option maxHeartbeats 4000000 in
/-- After the first 40 operations the source-row buffer is the node features gathered at the edges' source nodes. -/
theorem src_rows (W : Valuation τ sig (Elt Ideal)) :
    StableHlo.after (pre (F := Ideal)) W (Proc.devRef .tc main_v31) = rowsAt (W (Proc.devRef .tc main_arg0)) (srcIdx (W (Proc.devRef .tc main_arg1))) := by
  after_results <;> rfl

end Cert.ReferenceIdeal.RefPreSrc

end
-- ==== Proof.RefPreGraph.lean ====
/-
  The reference's first 40 operations read at the per-edge graph features: after them, the buffer of
  u[batch][src] holds, for each edge, the graph features of the graph of the edge's source node.
-/
import proofs.«113929_j70153995813296_2_alg».proof.Proof.RefRun
import proofs.«113929_j70153995813296_2_alg».proof.Proof.RefHostParts
import Idealize.ShloMosaic.Lib.StableHlo.Run
import Idealize.ShloMosaic.PureOps.Ideal

noncomputable section

namespace Cert.ReferenceIdeal.RefPreGraph

open Idealize.ShloMosaic Idealize.ShloMosaic.TcCoe Idealize.SL.Sem Idealize.ShloMosaic.StableHlo Cert.ReferenceIdeal Cert.ReferenceIdeal.Gen Cert.ReferenceIdeal.RefRun Cert.ReferenceIdeal.HostParts

set_option maxHeartbeats 4000000 in
/-- After the first 40 operations the per-edge graph-feature buffer is the per-node graph features gathered at the edges' source nodes. -/
theorem graph_rows_of_src (W : Valuation τ sig (Elt Ideal)) :
    StableHlo.after (pre (F := Ideal)) W (Proc.devRef .tc main_v17) = rowsAt (graphRows (W (Proc.devRef .tc main_arg3)) (W (Proc.devRef .tc main_arg4))) (srcIdx (W (Proc.devRef .tc main_arg1))) := by
  after_results <;> rfl

end Cert.ReferenceIdeal.RefPreGraph

end
-- ==== Proof.RefPreRest.lean ====
/-
  The reference's first 40 operations read at the buffers the last 20 still need: the per-node graph features and
  the edges' destination nodes.
-/
import proofs.«113929_j70153995813296_2_alg».proof.Proof.RefRun
import proofs.«113929_j70153995813296_2_alg».proof.Proof.RefHostParts
import Idealize.ShloMosaic.Lib.StableHlo.Run
import Idealize.ShloMosaic.PureOps.Ideal

noncomputable section

namespace Cert.ReferenceIdeal.RefPreRest

open Idealize.ShloMosaic Idealize.ShloMosaic.TcCoe Idealize.SL.Sem Idealize.ShloMosaic.StableHlo Cert.ReferenceIdeal Cert.ReferenceIdeal.Gen Cert.ReferenceIdeal.RefRun Cert.ReferenceIdeal.HostParts

set_option maxHeartbeats 4000000 in
/-- After the first 40 operations the per-node graph-feature buffer is the graph features gathered at the nodes' graphs. -/
theorem graph_rows (W : Valuation τ sig (Elt Ideal)) :
    StableHlo.after (pre (F := Ideal)) W (Proc.devRef .tc main_v10) = graphRows (W (Proc.devRef .tc main_arg3)) (W (Proc.devRef .tc main_arg4)) := by
  after_results <;> rfl

set_option maxHeartbeats 4000000 in
/-- After the first 40 operations the buffer of destination nodes is row 1 of the edge list. -/
theorem dest_nodes (W : Valuation τ sig (Elt Ideal)) :
    StableHlo.after (pre (F := Ideal)) W (Proc.devRef .tc main_v3) = dstIdx (W (Proc.devRef .tc main_arg1)) := by
  after_results <;> rfl

end Cert.ReferenceIdeal.RefPreRest

end
-- ==== Proof.RefPreArgs.lean ====
/-
  The reference's first 40 operations write no argument.
-/
import proofs.«113929_j70153995813296_2_alg».proof.Proof.RefRun
import proofs.«113929_j70153995813296_2_alg».proof.Proof.RefHostParts
import Idealize.ShloMosaic.Lib.StableHlo.Run
import Idealize.ShloMosaic.PureOps.Ideal

noncomputable section

namespace Cert.ReferenceIdeal.RefPreArgs

open Idealize.ShloMosaic Idealize.ShloMosaic.TcCoe Idealize.SL.Sem Idealize.ShloMosaic.StableHlo Cert.ReferenceIdeal Cert.ReferenceIdeal.Gen Cert.ReferenceIdeal.RefRun Cert.ReferenceIdeal.HostParts

set_option maxHeartbeats 4000000 in
/-- The first 40 operations write no argument: argument 0's buffer is as it was. -/
theorem keeps_arg0 (W : Valuation τ sig (Elt Ideal)) :
    StableHlo.after (pre (F := Ideal)) W (Proc.devRef .tc main_arg0) = W (Proc.devRef .tc main_arg0) := by
  after_results <;> rfl

set_option maxHeartbeats 4000000 in
/-- The first 40 operations write no argument: argument 1's buffer is as it was. -/
theorem keeps_arg1 (W : Valuation τ sig (Elt Ideal)) :
    StableHlo.after (pre (F := Ideal)) W (Proc.devRef .tc main_arg1) = W (Proc.devRef .tc main_arg1) := by
  after_results <;> rfl

set_option maxHeartbeats 4000000 in
/-- The first 40 operations write no argument: argument 2's buffer is as it was. -/
theorem keeps_arg2 (W : Valuation τ sig (Elt Ideal)) :
    StableHlo.after (pre (F := Ideal)) W (Proc.devRef .tc main_arg2) = W (Proc.devRef .tc main_arg2) := by
  after_results <;> rfl

set_option maxHeartbeats 4000000 in
/-- The first 40 operations write no argument: argument 3's buffer is as it was. -/
theorem keeps_arg3 (W : Valuation τ sig (Elt Ideal)) :
    StableHlo.after (pre (F := Ideal)) W (Proc.devRef .tc main_arg3) = W (Proc.devRef .tc main_arg3) := by
  after_results <;> rfl

set_option maxHeartbeats 4000000 in
/-- The first 40 operations write no argument: argument 4's buffer is as it was. -/
theorem keeps_arg4 (W : Valuation τ sig (Elt Ideal)) :
    StableHlo.after (pre (F := Ideal)) W (Proc.devRef .tc main_arg4) = W (Proc.devRef .tc main_arg4) := by
  after_results <;> rfl

set_option maxHeartbeats 4000000 in
/-- The first 40 operations write no argument: argument 5's buffer is as it was. -/
theorem keeps_arg5 (W : Valuation τ sig (Elt Ideal)) :
    StableHlo.after (pre (F := Ideal)) W (Proc.devRef .tc main_arg5) = W (Proc.devRef .tc main_arg5) := by
  after_results <;> rfl

set_option maxHeartbeats 4000000 in
/-- The first 40 operations write no argument: argument 6's buffer is as it was. -/
theorem keeps_arg6 (W : Valuation τ sig (Elt Ideal)) :
    StableHlo.after (pre (F := Ideal)) W (Proc.devRef .tc main_arg6) = W (Proc.devRef .tc main_arg6) := by
  after_results <;> rfl

set_option maxHeartbeats 4000000 in
/-- The first 40 operations write no argument: argument 7's buffer is as it was. -/
theorem keeps_arg7 (W : Valuation τ sig (Elt Ideal)) :
    StableHlo.after (pre (F := Ideal)) W (Proc.devRef .tc main_arg7) = W (Proc.devRef .tc main_arg7) := by
  after_results <;> rfl

set_option maxHeartbeats 4000000 in
/-- The first 40 operations write no argument: argument 8's buffer is as it was. -/
theorem keeps_arg8 (W : Valuation τ sig (Elt Ideal)) :
    StableHlo.after (pre (F := Ideal)) W (Proc.devRef .tc main_arg8) = W (Proc.devRef .tc main_arg8) := by
  after_results <;> rfl

end Cert.ReferenceIdeal.RefPreArgs

end
-- ==== Proof.RefValue.lean ====
/-
  The reference program's result as one function of its arguments.

  The last 20 operations compute the node layer of [x | sums | u at the nodes' graphs], the sums being the edge
  layer's messages added per destination node and the edge layer taking the four arrays the first 40 operations
  gathered. Each host layer is the clamped dense layer of its joined array (Layers.hostMessages_eq,
  Layers.hostUpdate_eq); each gathered array is read off the first 40 operations.
-/
import proofs.«113929_j70153995813296_2_alg».proof.Proof.RefRun
import proofs.«113929_j70153995813296_2_alg».proof.Proof.RefTail
import proofs.«113929_j70153995813296_2_alg».proof.Proof.RefPreDest
import proofs.«113929_j70153995813296_2_alg».proof.Proof.RefPreSrc
import proofs.«113929_j70153995813296_2_alg».proof.Proof.RefPreGraph
import proofs.«113929_j70153995813296_2_alg».proof.Proof.RefPreRest
import proofs.«113929_j70153995813296_2_alg».proof.Proof.RefPreArgs
import proofs.«113929_j70153995813296_2_alg».proof.Proof.RefLayers
import proofs.«113929_j70153995813296_2_alg».proof.Proof.RefHostParts

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.RefRun Cert.ReferenceIdeal.HostParts Cert.ReferenceIdeal.Layers

/-- The whole computation as one function of the nine arguments. -/
def layer (x : S100000x32.Idx → EReal) (e : (⟨S2x1600000, .i32⟩ : BufTy).Contents (Elt Ideal)) (a : S1600000x32.Idx → EReal)
    (u : S64x32.Idx → EReal) (g : (⟨S100000, .i32⟩ : BufTy).Contents (Elt Ideal))
    (W1 : S128x64.Idx → EReal) (b1 : S64.Idx → EReal) (W2 : S128x64.Idx → EReal) (b2 : S64.Idx → EReal) :
    S100000x64.Idx → EReal :=
  update x
    (segmentSum (F := Ideal) (dstIdx e)
      (messages (rowsAt (F := Ideal) x (dstIdx e)) (rowsAt (F := Ideal) x (srcIdx e)) a
        (rowsAt (F := Ideal) (graphRows (F := Ideal) u g) (srcIdx e)) W1 b1))
    (graphRows (F := Ideal) u g) W2 b2

variable (m : (ℓ : Loc nD τ sig) → Buf (Elt Ideal) ℓ)

/-- The result's buffer after the 60 operations, from the arguments. -/
theorem result_eq (c : Dev nD) :
    after (tail (F := Ideal)) (after (pre (F := Ideal)) (launchContents m c)) (Proc.devRef .tc main_v46) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [RefTail.result, RefPreDest.dest_rows, RefPreSrc.src_rows, RefPreGraph.graph_rows_of_src, RefPreRest.graph_rows,
    RefPreRest.dest_nodes, RefPreArgs.keeps_arg0, RefPreArgs.keeps_arg2, RefPreArgs.keeps_arg5, RefPreArgs.keeps_arg6,
    RefPreArgs.keeps_arg7, RefPreArgs.keeps_arg8, hostMessages_eq, hostUpdate_eq]
  rfl

theorem kept_arg0 (c : Dev nD) :
    after (tail (F := Ideal)) (after (pre (F := Ideal)) (launchContents m c)) (Proc.devRef .tc main_arg0) = m ((c.tc : Thread nD τ).loc main_arg0) :=
  (RefTail.keeps_arg0 _).trans (RefPreArgs.keeps_arg0 _)
theorem kept_arg1 (c : Dev nD) :
    after (tail (F := Ideal)) (after (pre (F := Ideal)) (launchContents m c)) (Proc.devRef .tc main_arg1) = m ((c.tc : Thread nD τ).loc main_arg1) :=
  (RefTail.keeps_arg1 _).trans (RefPreArgs.keeps_arg1 _)
theorem kept_arg2 (c : Dev nD) :
    after (tail (F := Ideal)) (after (pre (F := Ideal)) (launchContents m c)) (Proc.devRef .tc main_arg2) = m ((c.tc : Thread nD τ).loc main_arg2) :=
  (RefTail.keeps_arg2 _).trans (RefPreArgs.keeps_arg2 _)
theorem kept_arg3 (c : Dev nD) :
    after (tail (F := Ideal)) (after (pre (F := Ideal)) (launchContents m c)) (Proc.devRef .tc main_arg3) = m ((c.tc : Thread nD τ).loc main_arg3) :=
  (RefTail.keeps_arg3 _).trans (RefPreArgs.keeps_arg3 _)
theorem kept_arg4 (c : Dev nD) :
    after (tail (F := Ideal)) (after (pre (F := Ideal)) (launchContents m c)) (Proc.devRef .tc main_arg4) = m ((c.tc : Thread nD τ).loc main_arg4) :=
  (RefTail.keeps_arg4 _).trans (RefPreArgs.keeps_arg4 _)
theorem kept_arg5 (c : Dev nD) :
    after (tail (F := Ideal)) (after (pre (F := Ideal)) (launchContents m c)) (Proc.devRef .tc main_arg5) = m ((c.tc : Thread nD τ).loc main_arg5) :=
  (RefTail.keeps_arg5 _).trans (RefPreArgs.keeps_arg5 _)
theorem kept_arg6 (c : Dev nD) :
    after (tail (F := Ideal)) (after (pre (F := Ideal)) (launchContents m c)) (Proc.devRef .tc main_arg6) = m ((c.tc : Thread nD τ).loc main_arg6) :=
  (RefTail.keeps_arg6 _).trans (RefPreArgs.keeps_arg6 _)
theorem kept_arg7 (c : Dev nD) :
    after (tail (F := Ideal)) (after (pre (F := Ideal)) (launchContents m c)) (Proc.devRef .tc main_arg7) = m ((c.tc : Thread nD τ).loc main_arg7) :=
  (RefTail.keeps_arg7 _).trans (RefPreArgs.keeps_arg7 _)
theorem kept_arg8 (c : Dev nD) :
    after (tail (F := Ideal)) (after (pre (F := Ideal)) (launchContents m c)) (Proc.devRef .tc main_arg8) = m ((c.tc : Thread nD τ).loc main_arg8) :=
  (RefTail.keeps_arg8 _).trans (RefPreArgs.keeps_arg8 _)

/-- Every weakly fair execution of the reference terminates, nothing faulting, with the result's buffer at the layer
    of the arguments and every argument as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v46) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c main_v46).trans (result_eq m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c)⟩)
    (run_parts m ρ)

end Cert.ReferenceIdeal.RefValue

end
-- ==== Proof.lean ====
/-
  A graph network layer: a Pallas kernel program against its plain reference, equal on the extended reals.

  Both programs compute, from node features x [100000, 32], an edge list e [2, 1600000], edge features a
  [1600000, 32], graph features u [64, 32], graph numbers g [100000] and two dense layers (W1, b1), (W2, b2):

    messages = max([x at e's destination nodes | x at e's source nodes | a | (u at g) at e's source nodes] · W1 + b1, 0)
    sums     = the messages added per destination node
    result   = max([x | sums | u at g] · W2 + b2, 0)

  The reference does all of it with host operations. The kernel program does the gathers and the sum with the same
  host operations and each dense layer in a kernel region over blocks of 4000 rows: a block's rows of the joined
  array times the weights into a zero accumulator, plus the bias row, clamped at zero. Row p of a dense layer
  depends on row p of its input only, and row p of arrays joined side by side is made of row p of each, so the
  blocks a region writes back are the blocks of the whole-array layer, and they tile the output. A matrix product
  into a zero accumulator and the host's product are the same sum over the contracted coordinate; no other law is
  used, so the inputs' finiteness is not needed. The ideal pass rewrote no operation of the kernel program, so
  there is nothing to preserve.
-/
import proofs.«113929_j70153995813296_2_alg».proof.Defs
import proofs.«113929_j70153995813296_2_alg».proof.Proof.Gen.Kernel
import proofs.«113929_j70153995813296_2_alg».proof.Proof.Gen.Kernel.Frame
import proofs.«113929_j70153995813296_2_alg».proof.Proof.Gen.KernelIdeal
import proofs.«113929_j70153995813296_2_alg».proof.Proof.Gen.KernelIdeal.Frame
import proofs.«113929_j70153995813296_2_alg».proof.Proof.Gen.ReferenceIdeal
import proofs.«113929_j70153995813296_2_alg».proof.Proof.Gen.Pre_finite_inputs
import proofs.«113929_j70153995813296_2_alg».proof.Proof.KernelValue
import proofs.«113929_j70153995813296_2_alg».proof.Proof.RefValue

noncomputable section

namespace Cert.Proof

open Idealize.ShloMosaic Idealize.ShloMosaic.TcCoe Idealize.SL.Sem

/-- The reference's layer and the kernel program's layer are one function of the nine arguments: the same gathers,
    the same segment sum, the same two clamped dense layers of the same joined arrays. -/
theorem layer_eq (x : Cert.KernelIdeal.S100000x32.Idx → EReal)
    (e : (⟨Cert.KernelIdeal.S2x1600000, .i32⟩ : BufTy).Contents (Elt Ideal))
    (a : Cert.KernelIdeal.S1600000x32.Idx → EReal) (u : Cert.KernelIdeal.S64x32.Idx → EReal)
    (g : (⟨Cert.KernelIdeal.S100000, .i32⟩ : BufTy).Contents (Elt Ideal))
    (W1 : Cert.KernelIdeal.S128x64.Idx → EReal) (b1 : Cert.KernelIdeal.S64.Idx → EReal)
    (W2 : Cert.KernelIdeal.S128x64.Idx → EReal) (b2 : Cert.KernelIdeal.S64.Idx → EReal) :
    Cert.ReferenceIdeal.RefValue.layer x e a u g W1 b1 W2 b2 = Cert.KernelIdeal.KernelValue.layer x e a u g W1 b1 W2 b2 :=
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run_value m ρ)

theorem preserves : Cert.preserves_Kernel_KernelIdeal := trivial

/-- From memories that agree on the arguments both programs end with the layer of those arguments in their
    result's buffer. -/
theorem algebraic : Cert.algebraic_KernelIdeal_ReferenceIdeal := by
  intro m ρ m' ρ' _ hagree
  refine ⟨fun c => Cert.KernelIdeal.KernelValue.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KernelValue.run_value m ρ, ?_⟩
  refine (θ_run Cert.ReferenceIdeal.defs _ _).mono (fun _ h c => ⟨(h c).1.trans ?_, (h c).2⟩)
    (Cert.ReferenceIdeal.RefValue.run_value m' ρ')
  obtain ⟨e0, e1, e2, e3, e4, e5, e6, e7, e8⟩ := hagree c
  rw [e0, e1, e2, e3, e4, e5, e6, e7, e8]
  exact layer_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
